-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x64 : Shape := ⟨3, ![1, 16384, 64]⟩
abbrev S256x2 : Shape := ⟨2, ![256, 2]⟩
abbrev S16384x2 : Shape := ⟨2, ![16384, 2]⟩
abbrev S4096x64 : Shape := ⟨2, ![4096, 64]⟩
abbrev S64 : Shape := ⟨1, ![64]⟩
abbrev S_ : Shape := ⟨0, ![]⟩

class Facts : Prop where
  bcast_S_S1x16384x64 : S_.BroadcastsInDim S1x16384x64 (![] : Fin 0 → Fin S1x16384x64.rank)
  reducesTo_S1x16384x64_S_d0_1_2 : S1x16384x64.ReducesTo [0, 1, 2] S_
  h_S_ : 0 < S_.numel
  bcast_S_S16384x2 : S_.BroadcastsInDim S16384x2 (![] : Fin 0 → Fin S16384x2.rank)
  reducesTo_S16384x2_S_d0_1 : S16384x2.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1x16384x64 .f32) (main_arg1 : IVec S256x2 32) (main_arg2 : FVec F S16384x2 .f32) (main_arg3 : FVec F S4096x64 .f32) (main_arg4 : FVec F S64 .f32) (main_arg5 : FVec F S64 .f32) (main_arg6 : FVec F S64 .f32) : IVec S_ 1 :=
  let main_v0 : FVec F S1x16384x64 .f32 := Host.absf main_arg0
  let main_cst : FVec F S_ .f32 := constant S_ .f32 0x7F800000#32
  let main_v1 : FVec F S1x16384x64 .f32 := broadcastInDim S1x16384x64 ![] bcast_S_S1x16384x64 main_cst
  let main_v2 : IVec S1x16384x64 1 := cmpf .olt main_v0 main_v1
  let main_c : IVec S_ 1 := constantI S_ 1 1#1
  let main_v3 : IVec S_ 1 := (fun x v => Host.reduce IntOp.andi x v reducesTo_S1x16384x64_S_d0_1_2 h_S_) main_v2 main_c
  let main_v4 : FVec F S16384x2 .f32 := Host.absf main_arg2
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S1x16384x64 : Shape := ⟨3, ![1, 16384, 64]⟩
abbrev S256x2 : Shape := ⟨2, ![256, 2]⟩
abbrev S16384x2 : Shape := ⟨2, ![16384, 2]⟩
abbrev S4096x64 : Shape := ⟨2, ![4096, 64]⟩
abbrev S64 : Shape := ⟨1, ![64]⟩
abbrev S16384x64 : Shape := ⟨2, ![16384, 64]⟩
abbrev S1x64 : Shape := ⟨2, ![1, 64]⟩
abbrev S256x64 : Shape := ⟨2, ![256, 64]⟩
abbrev S256x1 : Shape := ⟨2, ![256, 1]⟩
abbrev S256 : Shape := ⟨1, ![256]⟩
abbrev S1x256 : Shape := ⟨2, ![1, 256]⟩
abbrev S256x256 : Shape := ⟨2, ![256, 256]⟩
abbrev S64x64 : Shape := ⟨2, ![64, 64]⟩
abbrev S_ : Shape := ⟨0, ![]⟩

abbrev nBuf : Space → Nat
  | .hbm => 43
  | .vmem => 8
  | .smem => 0
  | _ => 0

abbrev bufTy : (tb : Table) → Fin (tcTables nBuf tb) → BufTy
  | .hbm, ⟨0, _⟩ => ⟨S1x16384x64, .f32⟩
  | .hbm, ⟨1, _⟩ => ⟨S256x2, .i32⟩
  | .hbm, ⟨2, _⟩ => ⟨S16384x2, .f32⟩
  | .hbm, ⟨3, _⟩ => ⟨S4096x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S16384x64, .f32⟩
  | .hbm, ⟨8, _⟩ => ⟨S1x64, .f32⟩
  | .hbm, ⟨9, _⟩ => ⟨S16384x64, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S1x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S16384x64, .f32⟩
  | .hbm, ⟨26, _⟩ => ⟨S16384x64, .f32⟩
  | .hbm, ⟨27, _⟩ => ⟨S1x64, .f32⟩
  | .hbm, ⟨28, _⟩ => ⟨S16384x64, .f32⟩
  | .hbm, ⟨29, _⟩ => ⟨S16384x64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S1x64, .f32⟩
  | .hbm, ⟨35, _⟩ => ⟨S16384x64, .f32⟩
  | .hbm, ⟨36, _⟩ => ⟨S16384x64, .f32⟩
  | .hbm, ⟨37, _⟩ => ⟨S1x64, .f32⟩
  | .hbm, ⟨38, _⟩ => ⟨S16384x64, .f32⟩
  | .hbm, ⟨39, _⟩ => ⟨S16384x64, .f32⟩
  | .hbm, ⟨40, _⟩ => ⟨S_, .f32⟩
  | .hbm, ⟨41, _⟩ => ⟨S16384x64, .f32⟩
  | .hbm, ⟨42, _⟩ => ⟨S16384x64, .f32⟩
  | .local _ .vmem, ⟨0, _⟩ => ⟨S256x64, .f32⟩
  | .local _ .vmem, ⟨1, _⟩ => ⟨S256x64, .f32⟩
  | .local _ .vmem, ⟨2, _⟩ => ⟨S256x2, .f32⟩
  | .local _ .vmem, ⟨3, _⟩ => ⟨S256x2, .f32⟩
  | .local _ .vmem, ⟨4, _⟩ => ⟨S4096x64, .f32⟩
  | .local _ .vmem, ⟨5, _⟩ => ⟨S1x64, .f32⟩
  | .local _ .vmem, ⟨6, _⟩ => ⟨S256x64, .f32⟩
  | .local _ .vmem, ⟨7, _⟩ => ⟨S256x64, .f32⟩
  | _, _ => ⟨S1x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_26 : BitVec 32 := 0#32
  let c64_i32_27 : BitVec 32 := 64#32
  let v118 : BitVec 32 := Scalar.addi c0_i32_26 c64_i32_27
  let c1_i32_28 : BitVec 32 := 1#32
  ⟨c0_i32_26, v118, c1_i32_28⟩
def k0_mult1 (k0_t1 : Fin k0_t1_loop.trips) : BitVec 32 :=
  let c0_i32_26 : BitVec 32 := 0#32
  let c1_i32_28 : BitVec 32 := 1#32
  let arg6 : BitVec 32 := Scf.iv c0_i32_26 c1_i32_28 k0_t1
  let c64_i32_35 : BitVec 32 := 64#32
  let v132 : BitVec 32 := Scalar.muli arg6 c64_i32_35
  v132
def k0_off1 (k0_t1 : Fin k0_t1_loop.trips) : Fin 2 → Nat :=
  let c0_i32_26 : BitVec 32 := 0#32
  let c1_i32_28 : BitVec 32 := 1#32
  let arg6 : BitVec 32 := Scf.iv c0_i32_26 c1_i32_28 k0_t1
  let c64_i32_35 : BitVec 32 := 64#32
  let v132 : BitVec 32 := Scalar.muli arg6 c64_i32_35
  let v133 : BitVec 32 := v132
  let v134 : Index := Scalar.indexCast v133
  let c0_36 : Index := 0#32
  ![v134.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x16384x64_S16384x64 : S1x16384x64.ShapeCasts S16384x64
  shapeCasts_S64_S1x64 : S64.ShapeCasts S1x64
  inb_S256x2_S256x2_0_0 : ∀ a, (![0, 0] : Fin 2 → Nat) a + S256x2.size a ≤ S256x2.size a
  h_S256x2 : 0 < S256x2.numel
  slices_S256x2_o0_0_S256x1 : S256x2.Slices ![0, 0] S256x1
  shapeCasts_S256x1_S256 : S256x1.ShapeCasts S256
  slices_S256x2_o0_1_S256x1 : S256x2.Slices ![0, 1] S256x1
  shapeCasts_S256_S1x256 : S256.ShapeCasts S1x256
  shapeCasts_S256_S256x1 : S256.ShapeCasts S256x1
  broadcasts_S1x256_S256x256 : S1x256.Broadcasts S256x256
  broadcasts_S256x1_S256x256 : S256x1.Broadcasts S256x256
  iota_S256x256_d0_w32 : S256x256.Iotas .tc 32 [0]
  iota_S256x256_d1_w32 : S256x256.Iotas .tc 32 [1]
  natLt_1_32 : 1 < 32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  reducesTo_S16384x64_S64_d0 : S16384x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S256x256_S256x64_S256x64_1_0_0_1_n_n_wf : DotDims.WF S256x256 S256x64 S256x64 [1] [0] [0] [1] [] []
  dot_S256x64_S64x64_S256x64_1_0_0_1_n_n_wf : DotDims.WF S256x64 S64x64 S256x64 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S64x64.size a ≤ S4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S16384x64.size a
  hwx0_0 : ∀ i : grid0.Coords, EltTy.bits .f32 = 32 ∨ (Rect.block (s := S16384x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S16384x2.size a
  hwx0_1 : ∀ i : grid0.Coords, EltTy.bits .f32 = 32 ∨ (Rect.block (s := S16384x2) S256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S16384x64.size a
  hwx0_4 : ∀ i : grid0.Coords, EltTy.bits .f32 = 32 ∨ (Rect.block (s := S16384x64) S256x64.size (cc0_transform_4 i) (hinb0_4 i)).WholeWords (EltTy.packing .f32)

variable [Facts₀]

def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.ofSpec (Memref.whole main_v0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x16384x64 : Shape := ⟨3, ![1, 16384, 64]⟩
abbrev S256x2 : Shape := ⟨2, ![256, 2]⟩
abbrev S16384x2 : Shape := ⟨2, ![16384, 2]⟩
abbrev S4096x64 : Shape := ⟨2, ![4096, 64]⟩
abbrev S64 : Shape := ⟨1, ![64]⟩
abbrev S16384x64 : Shape := ⟨2, ![16384, 64]⟩
abbrev S256x64x64 : Shape := ⟨3, ![256, 64, 64]⟩
abbrev S256x64x2 : Shape := ⟨3, ![256, 64, 2]⟩
abbrev S256x64x1 : Shape := ⟨3, ![256, 64, 1]⟩
abbrev S256x64 : Shape := ⟨2, ![256, 64]⟩
abbrev S_ : Shape := ⟨0, ![]⟩
abbrev S256x1x64 : Shape := ⟨3, ![256, 1, 64]⟩
abbrev S64x64 : Shape := ⟨2, ![64, 64]⟩
abbrev S1x64x64 : Shape := ⟨3, ![1, 64, 64]⟩
abbrev S256 : Shape := ⟨1, ![256]⟩
abbrev S256x1x1 : Shape := ⟨3, ![256, 1, 1]⟩
abbrev S1x64x1 : Shape := ⟨3, ![1, 64, 1]⟩
abbrev S256x1x64x64 : Shape := ⟨4, ![256, 1, 64, 64]⟩
abbrev S256x64x64x64 : Shape := ⟨4, ![256, 64, 64, 64]⟩
abbrev S1048576x64 : Shape := ⟨2, ![1048576, 64]⟩
abbrev S1048576 : Shape := ⟨1, ![1048576]⟩
abbrev S1048577x64 : Shape := ⟨2, ![1048577, 64]⟩
abbrev S1048576x1 : Shape := ⟨2, ![1048576, 1]⟩
abbrev S16384x4096 : Shape := ⟨2, ![16384, 4096]⟩
abbrev S1x64 : Shape := ⟨2, ![1, 64]⟩

abbrev nBuf : Space → Nat
  | .hbm => 167
  | .vmem => 0
  | .smem => 0
  | _ => 0

abbrev hbmTy0_0 (i : Nat) : BufTy := match i % 128 with
  | 0 => ⟨S1x16384x64, .f32⟩
  | 1 => ⟨S256x2, .i32⟩
  | 2 => ⟨S16384x2, .f32⟩
  | 3 => ⟨S4096x64, .f32⟩
  | 4 => ⟨S64, .f32⟩
  | 5 => ⟨S64, .f32⟩
  | 6 => ⟨S64, .f32⟩
  | 7 => ⟨S16384x64, .f32⟩
  | 8 => ⟨S256x64x64, .f32⟩
  | 9 => ⟨S256x64x2, .f32⟩
  | 10 => ⟨S256x64x1, .f32⟩
  | 11 => ⟨S256x64, .f32⟩
  | 12 => ⟨S_, .f32⟩
  | 13 => ⟨S256x64, .f32⟩
  | 14 => ⟨S256x64, .f32⟩
  | 15 => ⟨S256x64x1, .f32⟩
  | 16 => ⟨S256x64, .f32⟩
  | 17 => ⟨S_, .f32⟩
  | 18 => ⟨S256x64, .f32⟩
  | 19 => ⟨S256x64, .f32⟩
  | 20 => ⟨S256x64x1, .f32⟩
  | 21 => ⟨S256x64, .f32⟩
  | 22 => ⟨S_, .f32⟩
  | 23 => ⟨S256x64, .f32⟩
  | 24 => ⟨S256x64, .f32⟩
  | 25 => ⟨S256x64x1, .f32⟩
  | 26 => ⟨S256x64, .f32⟩
  | 27 => ⟨S_, .f32⟩
  | 28 => ⟨S256x64, .f32⟩
  | 29 => ⟨S256x64, .f32⟩
  | 30 => ⟨S256x64x1, .f32⟩
  | 31 => ⟨S256x64, .f32⟩
  | 32 => ⟨S256x1x64, .f32⟩
  | 33 => ⟨S256x64x1, .f32⟩
  | 34 => ⟨S256x64, .f32⟩
  | 35 => ⟨S256x1x64, .f32⟩
  | 36 => ⟨S256x64x1, .f32⟩
  | 37 => ⟨S256x64x64, .f32⟩
  | 38 => ⟨S256x64x64, .f32⟩
  | 39 => ⟨S256x64x64, .f32⟩
  | 40 => ⟨S_, .f32⟩
  | 41 => ⟨S256x64x64, .f32⟩
  | 42 => ⟨S256x64x64, .f32⟩
  | 43 => ⟨S_, .f32⟩
  | 44 => ⟨S256x64x64, .f32⟩
  | 45 => ⟨S256x64x64, .f32⟩
  | 46 => ⟨S256x64x64, .f32⟩
  | 47 => ⟨S256x64x1, .f32⟩
  | 48 => ⟨S256x64x64, .f32⟩
  | 49 => ⟨S256x64x64, .f32⟩
  | 50 => ⟨S256x64x64, .f32⟩
  | 51 => ⟨S_, .f32⟩
  | 52 => ⟨S256x64x64, .f32⟩
  | 53 => ⟨S256x64x64, .f32⟩
  | 54 => ⟨S_, .f32⟩
  | 55 => ⟨S256x64x64, .f32⟩
  | 56 => ⟨S256x64x64, .f32⟩
  | 57 => ⟨S256x64x64, .f32⟩
  | 58 => ⟨S_, .f32⟩
  | 59 => ⟨S256x64x64, .f32⟩
  | 60 => ⟨S256x64x64, .f32⟩
  | 61 => ⟨S256x64x64, .f32⟩
  | 62 => ⟨S256x64x1, .f32⟩
  | 63 => ⟨S256x64x64, .f32⟩
  | 64 => ⟨S256x64x64, .f32⟩
  | 65 => ⟨S256x64x64, .i1⟩
  | 66 => ⟨S256x64x1, .f32⟩
  | 67 => ⟨S256x64x64, .f32⟩
  | 68 => ⟨S256x64x64, .f32⟩
  | 69 => ⟨S256x64x64, .i1⟩
  | 70 => ⟨S256x64x64, .i1⟩
  | 71 => ⟨S256x64x1, .f32⟩
  | 72 => ⟨S256x64x64, .f32⟩
  | 73 => ⟨S256x64x64, .f32⟩
  | 74 => ⟨S256x64x64, .i1⟩
  | 75 => ⟨S256x64x64, .i1⟩
  | 76 => ⟨S256x64x1, .f32⟩
  | 77 => ⟨S256x64x64, .f32⟩
  | 78 => ⟨S256x64x64, .f32⟩
  | 79 => ⟨S256x64x64, .i1⟩
  | 80 => ⟨S256x64x64, .i1⟩
  | 81 => ⟨S64x64, .i32⟩
  | 82 => ⟨S64x64, .i32⟩
  | 83 => ⟨S_, .i32⟩
  | 84 => ⟨S64x64, .i32⟩
  | 85 => ⟨S64x64, .i32⟩
  | 86 => ⟨S64x64, .i1⟩
  | 87 => ⟨S1x64x64, .i1⟩
  | 88 => ⟨S256x64x64, .i1⟩
  | 89 => ⟨S1x64x64, .i1⟩
  | 90 => ⟨S256x64x64, .i1⟩
  | 91 => ⟨S256x64x64, .i1⟩
  | 92 => ⟨S256x64x64, .i32⟩
  | 93 => ⟨S_, .i32⟩
  | 94 => ⟨S_, .i32⟩
  | 95 => ⟨S_, .i32⟩
  | 96 => ⟨S256x64x64, .i32⟩
  | 97 => ⟨S256x64x64, .i32⟩
  | 98 => ⟨S_, .i32⟩
  | 99 => ⟨S256x64x64, .i32⟩
  | 100 => ⟨S256x64x64, .i32⟩
  | 101 => ⟨S256, .i32⟩
  | 102 => ⟨S256x1x1, .i32⟩
  | 103 => ⟨S_, .i32⟩
  | 104 => ⟨S256x1x1, .i32⟩
  | 105 => ⟨S256x1x1, .i32⟩
  | 106 => ⟨S64, .i32⟩
  | 107 => ⟨S1x64x1, .i32⟩
  | 108 => ⟨S256x64x1, .i32⟩
  | 109 => ⟨S256x64x1, .i32⟩
  | 110 => ⟨S256x64x1, .i32⟩
  | 111 => ⟨S_, .i32⟩
  | 112 => ⟨S256x64x1, .i32⟩
  | 113 => ⟨S256x64x1, .i32⟩
  | 114 => ⟨S256x64x64, .i32⟩
  | 115 => ⟨S256x64x64, .i32⟩
  | 116 => ⟨S_, .i32⟩
  | 117 => ⟨S_, .i32⟩
  | 118 => ⟨S256x64x64, .i32⟩
  | 119 => ⟨S256x64x64, .i32⟩
  | 120 => ⟨S256x1x64x64, .f32⟩
  | 121 => ⟨S256x64x64x64, .f32⟩
  | 122 => ⟨S1048576x64, .f32⟩
  | 123 => ⟨S1048576, .i32⟩
  | 124 => ⟨S_, .f32⟩
  | 125 => ⟨S1048577x64, .f32⟩
  | 126 => ⟨S1048576x1, .i32⟩
  | 127 => ⟨S1048577x64, .f32⟩
  | _ => ⟨S1x16384x64, .f32⟩

abbrev hbmTy0_1 (i : Nat) : BufTy := match i % 128 with
  | 0 => ⟨S1048576x64, .f32⟩
  | 1 => ⟨S16384x4096, .f32⟩
  | 2 => ⟨S16384x64, .f32⟩
  | 3 => ⟨S1x64, .f32⟩
  | 4 => ⟨S16384x64, .f32⟩
  | 5 => ⟨S16384x64, .f32⟩
  | 6 => ⟨S_, .f32⟩
  | 7 => ⟨S64, .f32⟩
  | 8 => ⟨S_, .f32⟩
  | 9 => ⟨S64, .f32⟩
  | 10 => ⟨S64, .f32⟩
  | 11 => ⟨S1x64, .f32⟩
  | 12 => ⟨S16384x64, .f32⟩
  | 13 => ⟨S16384x64, .f32⟩
  | 14 => ⟨S16384x64, .f32⟩
  | 15 => ⟨S_, .f32⟩
  | 16 => ⟨S64, .f32⟩
  | 17 => ⟨S_, .f32⟩
  | 18 => ⟨S64, .f32⟩
  | 19 => ⟨S64, .f32⟩
  | 20 => ⟨S1x64, .f32⟩
  | 21 => ⟨S16384x64, .f32⟩
  | 22 => ⟨S16384x64, .f32⟩
  | 23 => ⟨S1x64, .f32⟩
  | 24 => ⟨S16384x64, .f32⟩
  | 25 => ⟨S16384x64, .f32⟩
  | 26 => ⟨S_, .f32⟩
  | 27 => ⟨S64, .f32⟩
  | 28 => ⟨S64, .f32⟩
  | 29 => ⟨S64, .f32⟩
  | 30 => ⟨S1x64, .f32⟩
  | 31 => ⟨S16384x64, .f32⟩
  | 32 => ⟨S16384x64, .f32⟩
  | 33 => ⟨S1x64, .f32⟩
  | 34 => ⟨S16384x64, .f32⟩
  | 35 => ⟨S16384x64, .f32⟩
  | 36 => ⟨S_, .f32⟩
  | 37 => ⟨S16384x64, .f32⟩
  | 38 => ⟨S16384x64, .f32⟩
  | _ => ⟨S1x16384x64, .f32⟩

abbrev hbmTy (i : Nat) : BufTy := match i / 128 with
  | 0 => hbmTy0_0 i
  | 1 => hbmTy0_1 i
  | _ => ⟨S1x16384x64, .f32⟩

abbrev bufTy : (tb : Table) → Fin (tcTables nBuf tb) → BufTy
  | .hbm, ⟨i, _⟩ => hbmTy i
  | _, _ => ⟨S1x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_8 : Ref sig .tc := ⟨.hbm, 93, rfl⟩
abbrev main_c_9 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_11 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_12 : Ref sig .tc := ⟨.hbm, 116, rfl⟩
abbrev main_call1_v0 : Ref sig .tc := ⟨.hbm, 117, rfl⟩
abbrev main_call1_v1 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_13 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_14 : Ref sig .tc := ⟨.hbm, 134, rfl⟩
abbrev main_v104 : Ref sig .tc := ⟨.hbm, 135, rfl⟩
abbrev main_cst_15 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_16 : Ref sig .tc := ⟨.hbm, 143, rfl⟩
abbrev main_v111 : Ref sig .tc := ⟨.hbm, 144, rfl⟩
abbrev main_cst_17 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_18 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_19 : Ref sig .tc := ⟨.hbm, 164, rfl⟩
abbrev main_v129 : Ref sig .tc := ⟨.hbm, 165, rfl⟩
abbrev main_v130 : Ref sig .tc := ⟨.hbm, 166, rfl⟩

abbrev nD : Nat := 1
abbrev τ : Topo := Topo.v7x

variable {F : FTy → Type} [FloatOps F]

class Facts₀ : Prop where
  shapeCasts_S1x16384x64_S16384x64 : S1x16384x64.ShapeCasts S16384x64
  shapeCasts_S16384x64_S256x64x64 : S16384x64.ShapeCasts S256x64x64
  shapeCasts_S16384x2_S256x64x2 : S16384x2.ShapeCasts S256x64x2
  slices_S256x64x2_S256x64x1_0_0_0 : S256x64x2.Slices ![0, 0, 0] S256x64x1
  shapeCasts_S256x64x1_S256x64 : S256x64x1.ShapeCasts S256x64
  bcast_S_S256x64 : S_.BroadcastsInDim S256x64 (![] : Fin 0 → Fin S256x64.rank)
  slices_S256x64x2_S256x64x1_0_0_1 : S256x64x2.Slices ![0, 0, 1] S256x64x1
  bcast_S256x64_S256x1x64_0_2 : S256x64.BroadcastsInDim S256x1x64 (![0, 2] : Fin 2 → Fin S256x1x64.rank)
  bcast_S256x64_S256x64x1_0_1 : S256x64.BroadcastsInDim S256x64x1 (![0, 1] : Fin 2 → Fin S256x64x1.rank)
  bcast_S256x1x64_S256x64x64_0_1_2 : S256x1x64.BroadcastsInDim S256x64x64 (![0, 1, 2] : Fin 3 → Fin S256x64x64.rank)
  bcast_S256x64x1_S256x64x64_0_1_2 : S256x64x1.BroadcastsInDim S256x64x64 (![0, 1, 2] : Fin 3 → Fin S256x64x64.rank)
  bcast_S_S256x64x64 : S_.BroadcastsInDim S256x64x64 (![] : Fin 0 → Fin S256x64x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S256x64x64_0_1_2 : S1x64x64.BroadcastsInDim S256x64x64 (![0, 1, 2] : Fin 3 → Fin S256x64x64.rank)
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S64_S1x64x1_1 : S64.BroadcastsInDim S1x64x1 (![1] : Fin 1 → Fin S1x64x1.rank)
  bcast_S256x1x1_S256x64x1_0_1_2 : S256x1x1.BroadcastsInDim S256x64x1 (![0, 1, 2] : Fin 3 → Fin S256x64x1.rank)
  bcast_S1x64x1_S256x64x1_0_1_2 : S1x64x1.BroadcastsInDim S256x64x1 (![0, 1, 2] : Fin 3 → Fin S256x64x1.rank)
  bcast_S_S256x64x1 : S_.BroadcastsInDim S256x64x1 (![] : Fin 0 → Fin S256x64x1.rank)
  bcast_S256x64x64_S256x1x64x64_0_2_3 : S256x64x64.BroadcastsInDim S256x1x64x64 (![0, 2, 3] : Fin 3 → Fin S256x1x64x64.rank)
  bcast_S256x1x64x64_S256x64x64x64_0_1_2_3 : S256x1x64x64.BroadcastsInDim S256x64x64x64 (![0, 1, 2, 3] : Fin 4 → Fin S256x64x64x64.rank)
  shapeCasts_S256x64x64x64_S1048576x64 : S256x64x64x64.ShapeCasts S1048576x64
  shapeCasts_S256x64x64_S1048576 : S256x64x64.ShapeCasts S1048576
  bcast_S_S1048577x64 : S_.BroadcastsInDim S1048577x64 (![] : Fin 0 → Fin S1048577x64.rank)
  bcast_S1048576_S1048576x1_0 : S1048576.BroadcastsInDim S1048576x1 (![0] : Fin 1 → Fin S1048576x1.rank)
  slices_S1048577x64_S1048576x64_0_0 : S1048577x64.Slices ![0, 0] S1048576x64
  shapeCasts_S1048576x64_S16384x4096 : S1048576x64.ShapeCasts S16384x4096
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S64_d0 : S16384x64.ReducesTo [0] S64
  h_S_ : 0 < S_.numel
  bcast_S_S64 : S_.BroadcastsInDim S64 (![] : Fin 0 → Fin S64.rank)
  bcast_S_S16384x64 : S_.BroadcastsInDim S16384x64 (![] : Fin 0 → Fin S16384x64.rank)
  scatter_S1048577x64_S1048576x1_S1048576x64_1_0_0_1_wf : ScatterDims.WF S1048577x64 S1048576x1 S1048576x64 [1] [0] [0] 1
  dot_S16384x4096_S4096x64_S16384x64_1_0_0_1_n_n_wf : DotDims.WF S16384x4096 S4096x64 S16384x64 [1] [0] [0] [1] [] []

variable [Facts₀]

def scatter_S1048577x64_S1048576x1_S1048576x64_1_0_0_1 : ScatterDims S1048577x64 S1048576x1 S1048576x64 where
  updateWindowDims := [1]
  insertedWindowDims := [0]
  scatterDimsToOperandDims := [0]
  indexVectorDim := 1
  wf := scatter_S1048577x64_S1048576x1_S1048576x64_1_0_0_1_wf
def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.BlockValue.lean ====
/-
  What one grid point of the kernel leaves in its output block, as a pure function of the point's input blocks.

  The body loads the block's positions `x1` and hidden states `x0`, then runs over the 64 grid cells carrying an
  accumulator: before cell 0 it is zero, and cell `k` adds its contribution, computed from the masks of the pairs
  and the 64 x 64 block of weights at rows `64 k … 64 k + 63`.  After the last cell the bias row is added and the
  block is stored whole.  `accBefore x0 x1 x2 k` is the accumulator before cell `k`.
-/
import proofs.«128457_j3169685865097_1_alg».proof.Proof.Gen.KernelIdeal.Frame
import Idealize.ShloMosaic.Lib.Pipeline.Value

set_option maxRecDepth 16384

noncomputable section

namespace Cert.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The 64 x 64 block of weights of grid cell `k`: rows `64 k … 64 k + 63` of the weight array. -/
def wblock (x2 : Vec F S4096x64 .f32) (k : Fin k0_t1_loop.trips) : Vec F S64x64 .f32 :=
  View.ld x2 (Rect.unit (s := S4096x64) (k0_off1 k) S64x64.size (k0_off1_inb k))

/-- The accumulator before grid cell `k`: zero before the first, then each cell's contribution added in turn. -/
def accBefore (x0 : Vec F S256x64 .f32) (x1 : Vec F S256x2 .f32) (x2 : Vec F S4096x64 .f32) : ℕ → FVec F S256x64 .f32
  | 0 => k0_pay1
  | k + 1 => if h : k < k0_t1_loop.trips then
      k0_pay2 (k0_pay11 x1) (k0_pay13 (k0_pay6 x1) (k0_pay7 x1) (k0_pay8 x1) (k0_pay9 x1) (k0_pay10 x1) (k0_pay12 x1)) (iota .tc S256x256 32 [1] Facts₀.iota_S256x256_d1_w32) k0_pay14 k0_pay15 (64#32) k0_pay16 k0_pay17 (1#1) x0 ⟨k, h⟩ (accBefore x0 x1 x2 k) (wblock x2 ⟨k, h⟩)
    else accBefore x0 x1 x2 k

/-- One trip of the loop, on a weight buffer read as `X`: the cell's payload of the carried value and the cell's block. -/
theorem tripR_eq (𝒱 : Variants) (bd : Option 𝒱.V) (c : Dev nD) (i : grid0.Coords) (arg1 : Memref sig .tc .vmem S256x64 .f32) (harg1 : arg1.IsWhole) (arg2 : Memref sig .tc .vmem S256x2 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S256x64 .f32) (harg5 : arg5.IsWhole) (v42 : IVec S256x256 32) (v57 : IVec S256x256 1) (v59 : IVec S256x256 32) (v60 : IVec S256x256 1) (v84 : IVec S256x256 32) (c64_i32_14 : BitVec 32) (v86 : IVec S256x256 32) (v93 : IVec S256x256 32) (v94 : BitVec 1) (v114 : Vec F S256x64 .f32)
    (x2 : Vec F S4096x64 .f32) (k : Fin k0_t1_loop.trips) (acc : FVec F S256x64 .f32) :
    tripR_k0_t1 (F := F) 𝒱 c bd i arg1 harg1 arg2 harg2 arg3 harg3 arg4 harg4 arg5 harg5 v42 v57 v59 v60 v84 c64_i32_14 v86 v93 v94 v114 (harg3.unread x2) k acc
      = k0_pay2 v42 v57 v59 v60 v84 c64_i32_14 v86 v93 v94 v114 k acc (wblock x2 k) := by
  unfold tripR_k0_t1 trip_k0_t1 wblock
  dsimp only
  rw [View.readAt_eq_ld, harg3.read_unread]

/-- The carried value the run finds before trip `n` is the accumulator before cell `n`: both start at zero and take
    the same step. -/
theorem st_eq (c : Dev nD) (i : grid0.Coords) (arg1 : Memref sig .tc .vmem S256x64 .f32) (harg1 : arg1.IsWhole) (arg2 : Memref sig .tc .vmem S256x2 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S256x64 .f32) (harg5 : arg5.IsWhole) (x0 : Vec F S256x64 .f32) (x1 : Vec F S256x2 .f32) (x2 : Vec F S4096x64 .f32) (n : ℕ) :
    st_k0_t1 (F := F) Variants.none c none i arg1 harg1 arg2 harg2 arg3 harg3 arg4 harg4 arg5 harg5 (k0_pay11 x1) (k0_pay13 (k0_pay6 x1) (k0_pay7 x1) (k0_pay8 x1) (k0_pay9 x1) (k0_pay10 x1) (k0_pay12 x1)) (iota .tc S256x256 32 [1] Facts₀.iota_S256x256_d1_w32) k0_pay14 k0_pay15 (64#32) k0_pay16 k0_pay17 (1#1) x0 (harg3.unread x2) k0_pay1 n
      = accBefore x0 x1 x2 n := by
  induction n with
  | zero => rfl
  | succ k ih =>
    rw [st_k0_t1.eq_2, accBefore]
    unfold st_k0_t1Step
    by_cases h : k < k0_t1_loop.trips
    · rw [dif_pos h, dif_pos h, ih]
      exact tripR_eq Variants.none none c i arg1 harg1 arg2 harg2 arg3 harg3 arg4 harg4 arg5 harg5 _ _ _ _ _ _ _ _ _ _ x2 ⟨k, h⟩ _
    · rw [dif_neg h, dif_neg h, ih]

/-- What the body leaves in its output block, from input blocks `x0` (hidden states), `x1` (positions), `x2` (the
    weights) and `x3` (the bias row): the accumulator after the last cell, plus the bias. -/
theorem block_out (c : Dev nD) (i : grid0.Coords) (arg1 : Memref sig .tc .vmem S256x64 .f32) (harg1 : arg1.IsWhole) (arg2 : Memref sig .tc .vmem S256x2 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S256x64 .f32) (harg5 : arg5.IsWhole) (x0 : Vec F S256x64 .f32) (x1 : Vec F S256x2 .f32) (x2 : Vec F S4096x64 .f32) (x3 : Vec F S1x64 .f32) :
    out0_A_4 (F := F) c i arg1 harg1 arg2 harg2 arg3 harg3 arg4 harg4 arg5 harg5 x0 x1 x2 x3 = k0_pay3 (accBefore x0 x1 x2 k0_t1_loop.trips) x3 := by
  have hz2 : (![0, 0] : Fin 2 → Nat) = fun _ => 0 := by funext a; fin_cases a <;> rfl
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz2]
  simp only [View.readAt_eq_ld, harg1.read_unread, harg2.read_unread, harg4.read_unread,
    View.ld_unit_zero (S := S256x2) hz2, View.ld_unit_zero (S := S256x64) hz2, View.ld_unit_zero (S := S1x64) hz2]
  exact congrArg (fun a => k0_pay3 a x3) (st_eq c i arg1 harg1 arg2 harg2 arg3 harg3 arg4 harg4 arg5 harg5 x0 x1 x2 _)

end Cert.BlockValue

end
-- ==== Proof.PoolSpec.lean ====
/-
  Social pooling followed by a linear layer, as ONE function of the argument arrays.

  The scene holds 256 sequences of 64 pedestrians; row `n` of the position array `P` ([16384, 2]) and of the
  hidden-state array `H` ([1, 16384, 64]) is pedestrian `n % 64` of sequence `n / 64`.  Around the centre
  pedestrian `n` lies a square neighbourhood of side 2 cut into an 8 x 8 grid; another pedestrian `k` of the SAME
  sequence falls into grid cell `cell …` (clipped to 0 … 63) and counts only when it is strictly inside the
  square (`outside … = 0`) and is not the centre itself.  `pooled P H n g d` adds the hidden states (channel `d`)
  of the pedestrians counted in cell `g`, and the layer is

      lin P H W b (n, j) = (∑ g, ∑ d, pooled P H n g d * W (64 g + d, j)) + b j.

  Every float literal is kept as the word the two programs print; nothing here evaluates one.
-/
import Idealize.ShloMosaic.PureOps.Ideal
import Idealize.ShloMosaic.Lib.ValueIdx

noncomputable section

namespace Cert.PoolSpec

open Idealize.ShloMosaic Idealize.ShloMosaic.ValueIdx

/-- Half the neighbourhood's side, the side, and the grid's width, as the printed words. -/
abbrev half : EReal := Ideal.ofBits .f32 0x3F800000#32
abbrev side : EReal := Ideal.ofBits .f32 0x40000000#32
abbrev width : EReal := Ideal.ofBits .f32 0x41000000#32

/-- The grid cell of the pedestrian at `(xk, yk)` in the neighbourhood of the centre `(xi, yi)`: column
    `⌊(xk - (xi - 1)) / 2 * 8⌋` plus 8 times row `⌊((yi + 1) - yk) / 2 * 8⌋`, as a 32-bit integer clipped to 0 … 63. -/
def cell (xi yi xk yk : EReal) : BitVec 32 :=
  IntOp.minsi 63#32 (IntOp.maxsi 0#32 (FloatOps.fptosi (F := Ideal) (φ := .f32) 32
    (Ideal.liftRound Int.floor (Ideal.div (xk - (xi - half)) side * width)
      + Ideal.liftRound Int.floor (Ideal.div ((yi + half) - yk) side * width) * width)))

/-- `1` when `(xk, yk)` is NOT strictly inside the square of side 2 centred at `(xi, yi)`. -/
def outside (xi yi xk yk : EReal) : BitVec 1 :=
  IntOp.ori (IntOp.ori (IntOp.ori
    (FloatOps.cmpf (F := Ideal) (φ := .f32) .oge xk (xi + half))
    (FloatOps.cmpf (F := Ideal) (φ := .f32) .ole xk (xi - half)))
    (FloatOps.cmpf (F := Ideal) (φ := .f32) .oge yk (yi + half)))
    (FloatOps.cmpf (F := Ideal) (φ := .f32) .ole yk (yi - half))

/-- The pedestrian at `(xk, yk)` is counted in cell `g` of the centre `(xi, yi)`: inside the square, not the
    centre itself (`self`), and in that cell. -/
def picks (xi yi xk yk : EReal) (self : Prop) (g : Fin 64) : Prop :=
  outside xi yi xk yk = 0#1 ∧ ¬ self ∧ cell xi yi xk yk = BitVec.ofNat 32 g.val

instance (xi yi xk yk : EReal) (self : Prop) [Decidable self] (g : Fin 64) : Decidable (picks xi yi xk yk self g) := by
  unfold picks; infer_instance

abbrev Pos := (⟨2, ![16384, 2]⟩ : Shape).Idx → EReal
abbrev Hid := (⟨3, ![1, 16384, 64]⟩ : Shape).Idx → EReal
abbrev Wts := (⟨2, ![4096, 64]⟩ : Shape).Idx → EReal
abbrev Bias := (⟨1, ![64]⟩ : Shape).Idx → EReal

/-- The row of pedestrian `k` of the sequence that row `n` belongs to. -/
def mate (n : Fin 16384) (k : Fin 64) : Fin 16384 := ⟨n.val / 64 * 64 + k.val, by have := n.isLt; have := k.isLt; omega⟩

/-- The same inside one block of 256 rows (four sequences): the row, within the block, of pedestrian `k` of the
    sequence that the block's row `p` belongs to. -/
def blockMate (p : Fin 256) (k : Fin 64) : Fin 256 := ⟨p.val / 64 * 64 + k.val, by have := p.isLt; have := k.isLt; omega⟩

/-- Row `64 g + d` of the weights: channel `d` of grid cell `g`. -/
def wrow (g d : Fin 64) : Fin 4096 := ⟨g.val * 64 + d.val, by have := g.isLt; have := d.isLt; omega⟩

/-- Pedestrian `k` of `n`'s sequence is counted in cell `g` of the centre `n`. -/
def Picks (P : Pos) (n : Fin 16384) (k g : Fin 64) : Prop :=
  picks (P (ix2 n (0 : Fin 2))) (P (ix2 n (1 : Fin 2))) (P (ix2 (mate n k) (0 : Fin 2))) (P (ix2 (mate n k) (1 : Fin 2)))
    (k.val = n.val % 64) g

instance (P : Pos) (n : Fin 16384) (k g : Fin 64) : Decidable (Picks P n k g) := by
  unfold Picks; infer_instance

/-- The hidden states (channel `d`) of the pedestrians counted in cell `g` of the centre `n`, added up. -/
def pooled (P : Pos) (H : Hid) (n : Fin 16384) (g d : Fin 64) : EReal :=
  ∑ k : Fin 64, if Picks P n k g then H (ix3 (0 : Fin 1) (mate n k) d) else 0

/-- The pooled vector of row `n` (4096 entries, cell-major) through the linear layer. -/
def lin (P : Pos) (H : Hid) (W : Wts) (b : Bias) : (⟨2, ![16384, 64]⟩ : Shape).Idx → EReal := fun i =>
  (∑ g : Fin 64, ∑ d : Fin 64, pooled P H (i 0) g d * W (ix2 (wrow g d) (i 1))) + b (ix1 (i 1))

end Cert.PoolSpec

end
-- ==== Proof.BlockSum.lean ====
/-
  One block of the kernel's output, index by index, over the extended reals.

  For a block of 256 rows with positions `x1`, hidden states `x0`, the weights `x2` and the bias row `x3`, the
  accumulator before grid cell `n` holds at `(p, q)` the sum over the cells `g < n` of

      ∑ d, (∑ k, [pedestrian k of p's sequence is counted in cell g of p] · x0 (mate p k, d)) · x2 (64 g + d, q),

  so after the last cell the stored block is the sum over all 64 cells plus the bias `x3 (0, q)`.  The step from one
  cell to the next is the payload's value at an index (`StepLaw`, proved where the masks are read); here it is only
  summed: zero before the first cell, one more term per cell.
-/
import proofs.«128457_j3169685865097_1_alg».proof.Proof.BlockValue
import proofs.«128457_j3169685865097_1_alg».proof.Proof.PoolSpec
import Idealize.ShloMosaic.Lib.ValueIdx
import Idealize.ShloMosaic.Lib.ValueLayout
import Idealize.ShloMosaic.PureOps.Ideal.Laws

noncomputable section

namespace Cert.BlockSum

open Idealize.ShloMosaic Idealize.ShloMosaic.ValueIdx Cert.KernelIdeal Cert.KernelIdeal.Gen Cert.BlockValue Cert.PoolSpec

/-- The loop runs once per grid cell. -/
theorem trips_eq : k0_t1_loop.trips = 64 := by decide

/-- The grid cell a trip works on. -/
def cellOfTrip (t : Fin k0_t1_loop.trips) : Fin 64 := ⟨t.val, Nat.lt_of_lt_of_le t.isLt k0_t1_abs.2.1⟩

/-- Inside one block: the hidden states (channel `d`) of the pedestrians of row `p`'s own sequence that are counted in
    cell `g` of the centre `p`, added up. -/
def blockPooled (x0 : Vec Ideal S256x64 .f32) (x1 : Vec Ideal S256x2 .f32) (p : Fin 256) (g d : Fin 64) : EReal :=
  ∑ k : Fin 64, if picks (x1 (ix2 p (0 : Fin 2))) (x1 (ix2 p (1 : Fin 2)))
      (x1 (ix2 (blockMate p k) (0 : Fin 2))) (x1 (ix2 (blockMate p k) (1 : Fin 2))) (k.val = p.val % 64) g
    then x0 (ix2 (blockMate p k) d) else 0

/-- One cell's step, at an index: the carried value plus the cell's pooled vector through the cell's block of weights. -/
def StepLaw : Prop :=
  ∀ (x1 : Vec Ideal S256x2 .f32) (x0 : Vec Ideal S256x64 .f32) (t : Fin k0_t1_loop.trips)
    (acc : FVec Ideal S256x64 .f32) (wb : Vec Ideal S64x64 .f32) (p : Fin 256) (q : Fin 64),
    k0_pay2 (F := Ideal) (k0_pay11 x1) (k0_pay13 (k0_pay6 x1) (k0_pay7 x1) (k0_pay8 x1) (k0_pay9 x1) (k0_pay10 x1) (k0_pay12 x1)) (iota .tc S256x256 32 [1] Facts₀.iota_S256x256_d1_w32) k0_pay14 k0_pay15 (64#32) k0_pay16 k0_pay17 (1#1) x0 t acc wb (ix2 p q)
      = acc (ix2 p q) + ∑ d : Fin 64, blockPooled x0 x1 p (cellOfTrip t) d * wb (ix2 d q)

/-- Cell `g`'s block of weights at `(d, q)` is the weight array at row `64 g + d`. -/
theorem wblock_apply (x2 : Vec Ideal S4096x64 .f32) (t : Fin k0_t1_loop.trips) (d q : Fin 64) :
    wblock x2 t (ix2 d q) = x2 (ix2 (wrow (cellOfTrip t) d) q) := by
  unfold wblock
  show x2 _ = x2 _
  refine congrArg x2 (funext fun a => Fin.ext ?_)
  have h0 := congrFun (k0_off1_eq t) 0
  have h1 := congrFun (k0_off1_eq t) 1
  match a with
  | ⟨0, _⟩ =>
    show k0_off1 t 0 + 1 * d.val = t.val * 64 + d.val
    rw [h0]; show 64 * t.val + 1 * d.val = _; omega
  | ⟨1, _⟩ =>
    show k0_off1 t 1 + 1 * q.val = q.val
    rw [h1]; show 0 + 1 * q.val = _; omega

/-- Cell `g`'s term of the sum at `(p, q)`, for a natural number `g` (zero past the last cell). -/
def term (x0 : Vec Ideal S256x64 .f32) (x1 : Vec Ideal S256x2 .f32) (x2 : Vec Ideal S4096x64 .f32) (p : Fin 256) (q : Fin 64) (g : ℕ) : EReal :=
  if h : g < 64 then ∑ d : Fin 64, blockPooled x0 x1 p ⟨g, h⟩ d * x2 (ix2 (wrow ⟨g, h⟩ d) q) else 0

/-- The accumulator before cell `n` is the sum of the terms of the cells before it. -/
theorem acc_range (hstep : StepLaw) (x0 : Vec Ideal S256x64 .f32) (x1 : Vec Ideal S256x2 .f32) (x2 : Vec Ideal S4096x64 .f32)
    (p : Fin 256) (q : Fin 64) (n : ℕ) (hn : n ≤ 64) :
    accBefore (F := Ideal) x0 x1 x2 n (ix2 p q) = ∑ g ∈ Finset.range n, term x0 x1 x2 p q g := by
  induction n with
  | zero =>
    rw [Finset.range_zero, Finset.sum_empty]
    show Ideal.ofBits .f32 0x00000000#32 = 0
    exact Ideal.ofBits_zero_f32
  | succ k ih =>
    have hk : k < k0_t1_loop.trips := by rw [trips_eq]; omega
    rw [accBefore, dif_pos hk, hstep, ih (by omega), Finset.sum_range_succ]
    congr 1
    have hk' : k < 64 := by omega
    unfold term
    rw [dif_pos hk']
    refine Finset.sum_congr rfl fun d _ => ?_
    rw [wblock_apply]
    rfl

/-- THE BLOCK: what a grid point stores at `(p, q)`. -/
theorem block_lin (hstep : StepLaw) (x0 : Vec Ideal S256x64 .f32) (x1 : Vec Ideal S256x2 .f32) (x2 : Vec Ideal S4096x64 .f32)
    (x3 : Vec Ideal S1x64 .f32) (p : Fin 256) (q : Fin 64) :
    k0_pay3 (F := Ideal) (accBefore x0 x1 x2 k0_t1_loop.trips) x3 (ix2 p q)
      = (∑ g : Fin 64, ∑ d : Fin 64, blockPooled x0 x1 p g d * x2 (ix2 (wrow g d) q)) + x3 (ix2 (0 : Fin 1) q) := by
  unfold k0_pay3
  show accBefore x0 x1 x2 k0_t1_loop.trips (ix2 p q)
      + broadcastTo S256x64 (shapeCast S1x64 x3 Facts₀.shapeCasts_S1x64_S1x64) Facts₀.broadcasts_S1x64_S256x64 (ix2 p q) = _
  rw [broadcastTo_1b_ab_apply, shapeCast_self, trips_eq, acc_range hstep x0 x1 x2 p q 64 le_rfl]
  refine congrArg (· + x3 (ix2 (0 : Fin 1) q)) ?_
  rw [← Fin.sum_univ_eq_sum_range (fun g => term x0 x1 x2 p q g) 64]
  refine Finset.sum_congr rfl fun g _ => ?_
  unfold term
  rw [dif_pos g.isLt]

end Cert.BlockSum

end
-- ==== Proof.BlockRows.lean ====
/-
  A block of 256 rows inside the whole arrays.

  Grid point `T` of the kernel works on rows `256 T … 256 T + 255` of the positions and of the hidden states, on the
  whole weight array and on the bias row.  256 is a multiple of 64, so a block holds four whole sequences: the
  sequence of row `256 T + p` starts at row `256 T + 64 (p / 64)`, inside the block, and its position within its
  sequence is `p % 64`.  Hence the block's formula is the layer `lin` read at the block's rows.
-/
import proofs.«128457_j3169685865097_1_alg».proof.Proof.BlockSum

noncomputable section

namespace Cert.BlockRows

open Idealize.ShloMosaic Idealize.ShloMosaic.ValueIdx Cert.KernelIdeal Cert.PoolSpec Cert.BlockSum

/-- Row `p` of block `T`, as a row of the whole arrays. -/
def row (T : Fin 64) (p : Fin 256) : Fin 16384 := ⟨T.val * 256 + p.val, by have := T.isLt; have := p.isLt; omega⟩

/-- The sequence of a block's row lies inside the block. -/
theorem mate_row (T : Fin 64) (p : Fin 256) (k : Fin 64) : mate (row T p) k = row T (blockMate p k) :=
  Fin.ext (by
    show (T.val * 256 + p.val) / 64 * 64 + k.val = T.val * 256 + (p.val / 64 * 64 + k.val)
    have := p.isLt; omega)

/-- A row's place in its sequence is its place in the block's sequence. -/
theorem row_mod (T : Fin 64) (p : Fin 256) : (row T p).val % 64 = p.val % 64 := by
  show (T.val * 256 + p.val) % 64 = p.val % 64
  omega

/-- THE BLOCK IS THE LAYER AT ITS ROWS: blocks `x0`, `x1` that are rows `256 T …` of the hidden states `H` and the
    positions `P`, the whole weights `x2 = W` and the bias row `x3 = b`. -/
theorem block_is_lin (P : Pos) (H : Hid) (W : Wts) (b : Bias) (T : Fin 64)
    (x0 : Vec Ideal S256x64 .f32) (x1 : Vec Ideal S256x2 .f32) (x2 : Vec Ideal S4096x64 .f32) (x3 : Vec Ideal S1x64 .f32)
    (h0 : ∀ (p : Fin 256) (d : Fin 64), x0 (ix2 p d) = H (ix3 (0 : Fin 1) (row T p) d))
    (h1 : ∀ (p : Fin 256) (a : Fin 2), x1 (ix2 p a) = P (ix2 (row T p) a))
    (h2 : ∀ (r : Fin 4096) (q : Fin 64), x2 (ix2 r q) = W (ix2 r q))
    (h3 : ∀ q : Fin 64, x3 (ix2 (0 : Fin 1) q) = b (ix1 q)) (p : Fin 256) (q : Fin 64) :
    (∑ g : Fin 64, ∑ d : Fin 64, blockPooled x0 x1 p g d * x2 (ix2 (wrow g d) q)) + x3 (ix2 (0 : Fin 1) q)
      = lin P H W b (ix2 (row T p) q) := by
  show _ = (∑ g : Fin 64, ∑ d : Fin 64, pooled P H (row T p) g d * W (ix2 (wrow g d) q)) + b (ix1 q)
  rw [h3]
  refine congrArg (· + b (ix1 q)) ?_
  refine Finset.sum_congr rfl fun g _ => Finset.sum_congr rfl fun d _ => ?_
  rw [h2]
  refine congrArg (· * W (ix2 (wrow g d) q)) ?_
  unfold blockPooled pooled
  refine Finset.sum_congr rfl fun k _ => ?_
  refine if_congr ?_ ?_ rfl
  · unfold Picks
    rw [mate_row, h1, h1, h1, h1, row_mod]
  · rw [mate_row, h0]

end Cert.BlockRows

end
-- ==== Proof.KernelArray.lean ====
/-
  The kernel's output array after the run, as one function of the argument arrays.

  Grid point `t` stages rows `256 t … 256 t + 255` of the hidden states (reshaped by the host from [1, 16384, 64] to
  [16384, 64] before the region) and of the positions, the whole weight array, and the bias as one row (reshaped from
  [64] to [1, 64]); it writes back rows `256 t … 256 t + 255` of the result.  What it writes back is block `t` of the
  layer `lin` of the argument arrays (the block's own formula, read at the block's rows), and the 64 blocks tile the
  16384 rows, so the array ends holding `lin` of the arguments.
-/
import proofs.«128457_j3169685865097_1_alg».proof.Proof.BlockRows
import Idealize.ShloMosaic.Lib.Pipeline.Value
import Idealize.ShloMosaic.Lib.ValueLayout
import Idealize.ShloMosaic.Lib.StableHlo.Run

set_option maxRecDepth 16384

noncomputable section

namespace Cert.KernelArray

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.PoolSpec Cert.BlockValue Cert.BlockSum Cert.BlockRows

variable (m : (ℓ : Loc nD τ sig) → Buf (Elt Ideal) ℓ) (ρ : Dev nD → PrngReg)

/-- The layer of the argument arrays: positions `arg2`, hidden states `arg0`, weights `arg3`, bias `arg4`. -/
abbrev layer (c : Dev nD) : S16384x64.Idx → EReal :=
  lin (m ((c : Thread nD τ).loc main_arg2)) (m ((c : Thread nD τ).loc main_arg0)) (m ((c : Thread nD τ).loc main_arg3))
    (m ((c : Thread nD τ).loc main_arg4))

/-- The printed index maps, decided once over the 64 grid points: the hidden states, the positions and the result
    move one block of rows per point; the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The hidden states as the region finds them: the host's reshape of the argument. -/
theorem V_hidden (c : Dev nD) : V m c main_v0
    = shapeCast S16384x64 (m ((c : Thread nD τ).loc main_arg0)) Facts₀.shapeCasts_S1x16384x64_S16384x64 := by
  show StableHlo.after hostOps0 (fun b => m (c, b)) (Proc.devRef .tc main_v0) = _
  after_results
  rfl

/-- The bias row as the region finds it: the host's reshape of the argument. -/
theorem V_bias (c : Dev nD) : V m c main_v1
    = shapeCast S1x64 (m ((c : Thread nD τ).loc main_arg4)) Facts₀.shapeCasts_S64_S1x64 := by
  show StableHlo.after hostOps0 (fun b => m (c, b)) (Proc.devRef .tc main_v1) = _
  after_results
  rfl

theorem lt_of_point (t : Fin cfg0.N) : t.val < 64 := Nat.lt_of_lt_of_eq t.isLt (N_0 : cfg0.N = 64)

/-- WHAT POINT `t` WRITES BACK is block `t` of the layer of the argument arrays. -/
theorem flushed_eq (hstep : StepLaw) (c : Dev nD) (t : Fin cfg0.N) :
    (dats m 0 c).flushed 4 t = ((cfg0.win 4).blk t).view.read (Elt Ideal) (layer m c) := by
  show (cfg0.win 4).cut (grid0.coords t) ((dats m 0 c).after 4 t) = _
  rw [after0_4]
  unfold outsAt0
  rw [block_out]
  obtain ⟨e00, e01, e10, e11, e20, e21, e30, e31, e40, e41⟩ := idx_facts t
  funext j
  obtain ⟨p, q, rfl⟩ : ∃ (p : Fin 256) (q : Fin 64), j = ix2 p q := ⟨j 0, j 1, eq_ix2 j⟩
  show k0_pay3 (accBefore (iblk m c 0 t) (iblk m c 1 t) (iblk m c 2 t) k0_t1_loop.trips) (iblk m c 3 t) (ix2 p q)
    = layer m c (((cfg0.win 4).blk t).view.emb (ix2 p q))
  have hemb : ((cfg0.win 4).blk t).view.emb (ix2 p q) = ix2 (row ⟨t.val, lt_of_point t⟩ p) q := by
    funext a; apply Fin.ext
    match a with
    | ⟨0, _⟩ => show win0_4.index t (0 : Fin 2) * 256 + 1 * p.val = t.val * 256 + p.val; omega
    | ⟨1, _⟩ => show win0_4.index t (1 : Fin 2) * 64 + 1 * q.val = q.val; omega
  rw [hemb]
  refine (block_lin hstep (iblk m c 0 t) (iblk m c 1 t) (iblk m c 2 t) (iblk m c 3 t) p q).trans ?_
  refine block_is_lin (m ((c : Thread nD τ).loc main_arg2)) (m ((c : Thread nD τ).loc main_arg0))
    (m ((c : Thread nD τ).loc main_arg3)) (m ((c : Thread nD τ).loc main_arg4)) ⟨t.val, lt_of_point t⟩
    (iblk m c 0 t) (iblk m c 1 t) (iblk m c 2 t) (iblk m c 3 t) ?_ ?_ ?_ ?_ p q
  · intro p' d
    show V m c main_v0 (((cfg0.win 0).blk t).view.emb (ix2 p' d)) = _
    have he : ((cfg0.win 0).blk t).view.emb (ix2 p' d) = ix2 (row ⟨t.val, lt_of_point t⟩ p') d := by
      funext a; apply Fin.ext
      match a with
      | ⟨0, _⟩ => show win0_0.index t (0 : Fin 2) * 256 + 1 * p'.val = t.val * 256 + p'.val; omega
      | ⟨1, _⟩ => show win0_0.index t (1 : Fin 2) * 64 + 1 * d.val = d.val; omega
    rw [he, V_hidden]
    exact shapeCast_1ab_ab_apply _ _ _ _
  · intro p' a
    show V m c main_arg2 (((cfg0.win 1).blk t).view.emb (ix2 p' a)) = _
    have he : ((cfg0.win 1).blk t).view.emb (ix2 p' a) = ix2 (row ⟨t.val, lt_of_point t⟩ p') a := by
      funext b; apply Fin.ext
      match b with
      | ⟨0, _⟩ => show win0_1.index t (0 : Fin 2) * 256 + 1 * p'.val = t.val * 256 + p'.val; omega
      | ⟨1, _⟩ => show win0_1.index t (1 : Fin 2) * 2 + 1 * a.val = a.val; omega
    rw [he, V_main_arg2]
  · intro r q'
    show V m c main_arg3 (((cfg0.win 2).blk t).view.emb (ix2 r q')) = _
    have he : ((cfg0.win 2).blk t).view.emb (ix2 r q') = ix2 r q' := by
      funext b; apply Fin.ext
      match b with
      | ⟨0, _⟩ => show win0_2.index t (0 : Fin 2) * 4096 + 1 * r.val = r.val; omega
      | ⟨1, _⟩ => show win0_2.index t (1 : Fin 2) * 64 + 1 * q'.val = q'.val; omega
    rw [he, V_main_arg3]
  · intro q'
    show V m c main_v1 (((cfg0.win 3).blk t).view.emb (ix2 (0 : Fin 1) q')) = _
    have he : ((cfg0.win 3).blk t).view.emb (ix2 (0 : Fin 1) q') = ix2 (0 : Fin 1) q' := by
      funext b; apply Fin.ext
      match b with
      | ⟨0, _⟩ => show win0_3.index t (0 : Fin 2) * 1 + 1 * 0 = 0; omega
      | ⟨1, _⟩ => show win0_3.index t (1 : Fin 2) * 64 + 1 * q'.val = q'.val; omega
    rw [he, V_bias]
    exact shapeCast_a_1a_apply _ _ _ _

/-- An index of the result is in point `t`'s block iff each coordinate is in the block's range on its axis. -/
theorem mem_blk (t : Fin cfg0.N) (i : S16384x64.Idx) :
    i ∈ ((cfg0.win 4).blk t).view.set ↔ ∀ a : Fin 2, win0_4.index t a * S256x64.size a ≤ (i a).val ∧ (i a).val < win0_4.index t a * S256x64.size a + S256x64.size a := by
  show i ∈ ((View.whole main_v2).slice (win0_4.rect t)).set ↔ _
  rw [View.set_slice_whole, Rect.mem_set_unit]
  exact Iff.rfl

/-- The 64 blocks of 256 rows tile the 16384 rows: row `r` is in block `r / 256`. -/
theorem cover (i : S16384x64.Idx) : ∃ t : Fin cfg0.N, (cfg0.win 4).flush t = true ∧ i ∈ ((cfg0.win 4).blk t).view.set := by
  have hi0 : (i 0).val < 16384 := (i 0).isLt
  have hi1 : (i 1).val < 64 := (i 1).isLt
  let t : Fin cfg0.N := ⟨(i 0).val / 256, Nat.lt_of_lt_of_eq (by omega : (i 0).val / 256 < 64) (N_0 : cfg0.N = 64).symm⟩
  obtain ⟨e00, e01, e10, e11, e20, e21, e30, e31, e40, e41⟩ := idx_facts t
  refine ⟨t, flush0_4 t, ?_⟩
  rw [mem_blk]
  intro a
  have ht : t.val = (i 0).val / 256 := rfl
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 64 ≤ (i 1).val ∧ (i 1).val < win0_4.index t (1 : Fin 2) * 64 + 64; omega

/-- THE ARRAY after the region: the layer of the argument arrays. -/
theorem final (hstep : StepLaw) (c : Dev nD) : (dats m 0 c).arrAt 4 cfg0.N = layer m c :=
  (dats m 0 c).arrAt_eq_of_cover 4 (layer m c) (fun t _ => flushed_eq m hstep c t) cover

end Cert.KernelArray

end
-- ==== Proof.BatchNorm.lean ====
/-
  Batch normalisation over the rows, then a rectifier: the lines both programs end with.

  For `x : [16384, 64]` and per-channel `gamma`, `beta : [64]`, with every operation the host's:

      mean  = (∑ rows x) / 16384                      var = (∑ rows (x - mean)²) / 16384
      y     = gamma * (x - mean) / sqrt (var + 1e-5) + beta            result = max y 0

  The float literals are kept as the printed words.  The shape facts the operations take are arguments: they are
  propositions, so the two programs' own witnesses give one and the same function.
-/
import Idealize.ShloMosaic.PureOps
import Idealize.ShloMosaic.PureOps.Ideal

noncomputable section

namespace Cert.BatchNorm

open Idealize.ShloMosaic

abbrev SN : Shape := ⟨2, ![16384, 64]⟩
abbrev SC : Shape := ⟨1, ![64]⟩
abbrev SR : Shape := ⟨2, ![1, 64]⟩
abbrev S0 : Shape := ⟨0, ![]⟩

/-- The normalised, rectified array. -/
def bnRelu (hred : SN.ReducesTo [0] SC) (h0 : 0 < S0.numel)
    (b0 : S0.BroadcastsInDim SC (![] : Fin 0 → Fin SC.rank)) (b1 : SC.BroadcastsInDim SR (![1] : Fin 1 → Fin SR.rank))
    (b2 : SR.BroadcastsInDim SN (![0, 1] : Fin 2 → Fin SN.rank)) (b3 : S0.BroadcastsInDim SN (![] : Fin 0 → Fin SN.rank))
    (x : FVec Ideal SN .f32) (gamma beta : FVec Ideal SC .f32) : FVec Ideal SN .f32 :=
  let count : FVec Ideal SC .f32 := broadcastInDim SC ![] b0 (constant (F := Ideal) S0 .f32 0x46800000#32)
  let mean : FVec Ideal SC .f32 := Host.divf (Host.reduceAdd x (constant (F := Ideal) S0 .f32 0x00000000#32) hred h0) count
  let centred : FVec Ideal SN .f32 := subf x (broadcastInDim SN ![0, 1] b2 (broadcastInDim SR ![1] b1 mean))
  let var : FVec Ideal SC .f32 :=
    Host.divf (Host.reduceAdd (mulf centred centred) (constant (F := Ideal) S0 .f32 0x00000000#32) hred h0) count
  let spread : FVec Ideal SC .f32 := Host.sqrt (addf var (broadcastInDim SC ![] b0 (constant (F := Ideal) S0 .f32 0x3727C5AC#32)))
  maximumf
    (addf
      (Host.divf (mulf (broadcastInDim SN ![0, 1] b2 (broadcastInDim SR ![1] b1 gamma)) centred)
        (broadcastInDim SN ![0, 1] b2 (broadcastInDim SR ![1] b1 spread)))
      (broadcastInDim SN ![0, 1] b2 (broadcastInDim SR ![1] b1 beta)))
    (broadcastInDim SN ![] b3 (constant (F := Ideal) S0 .f32 0x00000000#32))

end Cert.BatchNorm

end
-- ==== Proof.KernelRun.lean ====
/-
  The kernel program's run, with its result read: after the region the host normalises the layer's output over the rows
  and rectifies it, so the result is `bnRelu` of the layer of the argument arrays, the scale and the shift.
-/
import proofs.«128457_j3169685865097_1_alg».proof.Proof.KernelArray
import proofs.«128457_j3169685865097_1_alg».proof.Proof.BatchNorm

set_option maxRecDepth 16384

noncomputable section

namespace Cert.KernelRun

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.PoolSpec Cert.BlockSum Cert.KernelArray Cert.BatchNorm

set_option maxHeartbeats 4000000 in
/-- The lines after the region, over ANY contents of the buffers they read: the result is the normalised, rectified
    layer output (the region's array), scaled and shifted by the two per-channel arguments. -/
theorem tail_of (W : Valuation τ sig (Elt Ideal)) :
    StableHlo.after (hostOps1 (F := Ideal)) W (Proc.devRef .tc main_v29)
      = bnRelu Facts₀.reducesTo_S16384x64_S64_d0 Facts₀.h_S_ Facts₀.bcast_S_S64 Facts₀.bcast_S64_S1x64_1 Facts₀.bcast_S1x64_S16384x64_0_1 Facts₀.bcast_S_S16384x64
          (W (Proc.devRef .tc main_v2)) (W (Proc.devRef .tc main_arg5)) (W (Proc.devRef .tc main_arg6)) := by
  after_results
  unfold bnRelu
  rfl

variable (m : (ℓ : Loc nD τ sig) → Buf (Elt Ideal) ℓ) (ρ : Dev nD → PrngReg)

/-- The result buffer after the whole program. -/
theorem tail_eq (hstep : StepLaw) (c : Dev nD) :
    Pipeline.afterTail₀ cfgs (dats m) 0 (V0 m) [hostOps1] c main_v29
      = bnRelu Facts₀.reducesTo_S16384x64_S64_d0 Facts₀.h_S_ Facts₀.bcast_S_S64 Facts₀.bcast_S64_S1x64_1 Facts₀.bcast_S1x64_S16384x64_0_1 Facts₀.bcast_S_S16384x64
          (layer m c) (m ((c : Thread nD τ).loc main_arg5)) (m ((c : Thread nD τ).loc main_arg6)) := by
  unfold Pipeline.afterTail₀
  simp only [List.flatten_cons, List.flatten_nil, List.append_nil]
  rw [tail_of]
  have h2 : Pipeline.withArrays (cfgs 0).spec c (V0 m c) (fun w => (dats m 0 c).arrAt w (cfgs 0).N) (Proc.devRef .tc main_v2)
      = layer m c :=
    (Pipeline.withArrays_arr spec0 launch0.win.arr_inj c _ _ 4).trans (final m hstep c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  have h6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans
      (V_main_arg6 m c)
  rw [h2, h5, h6]

/-- Every weakly fair execution of the kernel program terminates with the result at the normalised, rectified layer
    of the argument arrays, and the arguments as launched. -/
theorem run (hstep : StepLaw) : θ_run defs (onTc (τ := τ) (main (F := Ideal))) ⟨m, fun _ => 0, ρ⟩ (fun r => ∀ c : Dev nD,
      r.2.mem ((c.tc : Thread nD τ).loc main_v29)
        = bnRelu Facts₀.reducesTo_S16384x64_S64_d0 Facts₀.h_S_ Facts₀.bcast_S_S64 Facts₀.bcast_S64_S1x64_1 Facts₀.bcast_S1x64_S16384x64_0_1 Facts₀.bcast_S_S16384x64
            (layer m c) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v29 (Pipeline.mem_restRefs_of main_v29 (by decide) (by decide))).trans (tail_eq m hstep c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelRun

end
-- ==== Proof.MaskBits.lean ====
/-
  What one pair (centre `p`, other `k`) of a block of 256 rows contributes to the pooling mask.

  The two columns of the position array are read as vectors and spread over the 256 x 256 pairs: a row broadcast
  carries the other pedestrian's coordinate (column index `k`), a column broadcast the centre's (row index `p`),
  shifted by half the neighbourhood's side where the body shifts it. At a pair, the clipped cell word is therefore
  `PoolSpec.cell` and the out-of-square bit `PoolSpec.outside` of the four coordinates (x_p, y_p, x_k, y_k).
  The integer part: on the words 0 … 255 the printed floor-division chain (quotient toward zero, less one when the
  signs differ and the remainder is not zero) is the natural numbers' `a / 64`, so the row's and the column's
  sequence numbers are `p / 64` and `k / 64`; the diagonal bit compares the two coordinate words. Together:
  the pair mask of trip `t` is 1 exactly when the cell word is the word of `t`, the other pedestrian is strictly
  inside the square, `p ≠ k`, and `p / 64 = k / 64`.
-/
import proofs.«128457_j3169685865097_1_alg».proof.Proof.Gen.KernelIdeal.Skeleton
import proofs.«128457_j3169685865097_1_alg».proof.Proof.PoolSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.WordArith

noncomputable section
namespace Cert.CellStep
open Idealize.ShloMosaic Idealize.ShloMosaic.ValueIdx Cert.KernelIdeal Cert.KernelIdeal.Gen

/-! ## The two columns of the positions, as vectors, rows and columns -/

/-- The first column of the positions read at a row. -/
theorem pay4_apply (x1 : Vec Ideal S256x2 .f32) (p : Fin 256) :
    k0_pay4 (F := Ideal) x1 (ix1 p) = x1 (ix2 p (0 : Fin 2)) := by
  unfold k0_pay4
  refine (shapeCast_apply _ _ (ix1 p) (ix2 p (0 : Fin 1)) ?_).trans ?_
  · rw [Shape.rowMajor_val_two, Shape.rowMajor_val_one]
    show p.val * 1 + 0 = p.val
    omega
  · exact slice2_axis1_apply 0 x1 _ p (0 : Fin 1) (0 : Fin 2) rfl

/-- The second column of the positions read at a row. -/
theorem pay5_apply (x1 : Vec Ideal S256x2 .f32) (p : Fin 256) :
    k0_pay5 (F := Ideal) x1 (ix1 p) = x1 (ix2 p (1 : Fin 2)) := by
  unfold k0_pay5
  refine (shapeCast_apply _ _ (ix1 p) (ix2 p (0 : Fin 1)) ?_).trans ?_
  · rw [Shape.rowMajor_val_two, Shape.rowMajor_val_one]
    show p.val * 1 + 0 = p.val
    omega
  · exact slice2_axis1_apply 1 x1 _ p (0 : Fin 1) (1 : Fin 2) rfl

/-- A vector cast to one column reads its entry at the row. -/
theorem shapeCast_a_a1_apply {α : Type} (x : S256.Idx → α) (h : S256.ShapeCasts S256x1) (p : Fin 256) (u : Fin 1) :
    shapeCast S256x1 x h (ix2 p u) = x (ix1 p) :=
  shapeCast_apply x h _ _ (by
    have hu : u.val = 0 := by omega
    rw [Shape.rowMajor_val_two, Shape.rowMajor_val_one]
    show p.val = p.val * 1 + u.val
    omega)

/-- One column broadcast over many reads the column's entry at the row. -/
theorem broadcastTo_a1_ab_apply {α : Type} (v : S256x1.Idx → α) (h : S256x1.Broadcasts S256x256) (p k : Fin 256) :
    broadcastTo S256x256 v h (ix2 p k) = v (ix2 p (0 : Fin 1)) := by
  refine broadcastTo_apply v h (ix2 p k) (ix2 p (0 : Fin 1)) fun ax => ?_
  match ax with
  | ⟨0, _⟩ => rfl
  | ⟨1, _⟩ => rfl

theorem pay6_apply (x1 : Vec Ideal S256x2 .f32) (u : Fin 1) (k : Fin 256) :
    k0_pay6 (F := Ideal) x1 (ix2 u k) = x1 (ix2 k (0 : Fin 2)) := by
  unfold k0_pay6
  exact (shapeCast_a_1a_apply _ _ u k).trans (pay4_apply x1 k)

theorem pay7_apply (x1 : Vec Ideal S256x2 .f32) (u : Fin 1) (k : Fin 256) :
    k0_pay7 (F := Ideal) x1 (ix2 u k) = x1 (ix2 k (1 : Fin 2)) := by
  unfold k0_pay7
  exact (shapeCast_a_1a_apply _ _ u k).trans (pay5_apply x1 k)

theorem pay8_apply (x1 : Vec Ideal S256x2 .f32) (p : Fin 256) (u : Fin 1) :
    k0_pay8 (F := Ideal) x1 (ix2 p u) = x1 (ix2 p (0 : Fin 2)) - Cert.PoolSpec.half := by
  unfold k0_pay8
  refine (shapeCast_a_a1_apply _ _ p u).trans ?_
  exact congrArg (· - Cert.PoolSpec.half) (pay4_apply x1 p)

theorem pay9_apply (x1 : Vec Ideal S256x2 .f32) (p : Fin 256) (u : Fin 1) :
    k0_pay9 (F := Ideal) x1 (ix2 p u) = x1 (ix2 p (1 : Fin 2)) + Cert.PoolSpec.half := by
  unfold k0_pay9
  refine (shapeCast_a_a1_apply _ _ p u).trans ?_
  exact congrArg (· + Cert.PoolSpec.half) (pay5_apply x1 p)

theorem pay10_apply (x1 : Vec Ideal S256x2 .f32) (p : Fin 256) (u : Fin 1) :
    k0_pay10 (F := Ideal) x1 (ix2 p u) = x1 (ix2 p (1 : Fin 2)) - Cert.PoolSpec.half := by
  unfold k0_pay10
  refine (shapeCast_a_a1_apply _ _ p u).trans ?_
  exact congrArg (· - Cert.PoolSpec.half) (pay5_apply x1 p)

/-! ## The clipped cell index and the out-of-square bit of a pair -/

/-- The cell word of the pair (centre `p`, other `k`) is the specification's. -/
theorem pay11_apply (x1 : Vec Ideal S256x2 .f32) (p k : Fin 256) :
    k0_pay11 (F := Ideal) x1 (ix2 p k)
      = Cert.PoolSpec.cell (x1 (ix2 p (0 : Fin 2))) (x1 (ix2 p (1 : Fin 2))) (x1 (ix2 k (0 : Fin 2))) (x1 (ix2 k (1 : Fin 2))) := by
  have e1 : broadcastTo S256x256 (k0_pay6 (F := Ideal) x1) broadcasts_S1x256_S256x256 (ix2 p k) = x1 (ix2 k (0 : Fin 2)) :=
    (broadcastTo_1b_ab_apply _ _ p k).trans (pay6_apply x1 0 k)
  have e2 : broadcastTo S256x256 (k0_pay8 (F := Ideal) x1) broadcasts_S256x1_S256x256 (ix2 p k)
      = x1 (ix2 p (0 : Fin 2)) - Cert.PoolSpec.half :=
    (broadcastTo_a1_ab_apply _ _ p k).trans (pay8_apply x1 p 0)
  have e3 : broadcastTo S256x256 (k0_pay9 (F := Ideal) x1) broadcasts_S256x1_S256x256 (ix2 p k)
      = x1 (ix2 p (1 : Fin 2)) + Cert.PoolSpec.half :=
    (broadcastTo_a1_ab_apply _ _ p k).trans (pay9_apply x1 p 0)
  have e4 : broadcastTo S256x256 (k0_pay7 (F := Ideal) x1) broadcasts_S1x256_S256x256 (ix2 p k) = x1 (ix2 k (1 : Fin 2)) :=
    (broadcastTo_1b_ab_apply _ _ p k).trans (pay7_apply x1 0 k)
  unfold k0_pay11 Cert.PoolSpec.cell
  simp only [minsi, maxsi, fptosi, addf, mulf, floor, divf, subf]
  rw [e1, e2, e3, e4]
  rfl

/-- The first comparison of the out-of-square test. -/
theorem pay12_apply (x1 : Vec Ideal S256x2 .f32) (p k : Fin 256) :
    k0_pay12 (F := Ideal) x1 (ix2 p k)
      = FloatOps.cmpf (F := Ideal) (φ := .f32) .oge (x1 (ix2 k (0 : Fin 2))) (x1 (ix2 p (0 : Fin 2)) + Cert.PoolSpec.half) := by
  have e1 : broadcastTo S256x256 (k0_pay6 (F := Ideal) x1) broadcasts_S1x256_S256x256 (ix2 p k) = x1 (ix2 k (0 : Fin 2)) :=
    (broadcastTo_1b_ab_apply _ _ p k).trans (pay6_apply x1 0 k)
  unfold k0_pay12
  simp only [cmpf]
  rw [e1, broadcastTo_a1_ab_apply, shapeCast_a_a1_apply]
  exact congrArg (fun z => FloatOps.cmpf (F := Ideal) (φ := .f32) .oge (x1 (ix2 k (0 : Fin 2))) (z + Cert.PoolSpec.half))
    (pay4_apply x1 p)

/-- The out-of-square bit of the pair (centre `p`, other `k`) is the specification's. -/
theorem pay13_apply (x1 : Vec Ideal S256x2 .f32) (p k : Fin 256) :
    k0_pay13 (F := Ideal) (k0_pay6 x1) (k0_pay7 x1) (k0_pay8 x1) (k0_pay9 x1) (k0_pay10 x1) (k0_pay12 x1) (ix2 p k)
      = Cert.PoolSpec.outside (x1 (ix2 p (0 : Fin 2))) (x1 (ix2 p (1 : Fin 2))) (x1 (ix2 k (0 : Fin 2))) (x1 (ix2 k (1 : Fin 2))) := by
  have e1 : broadcastTo S256x256 (k0_pay6 (F := Ideal) x1) broadcasts_S1x256_S256x256 (ix2 p k) = x1 (ix2 k (0 : Fin 2)) :=
    (broadcastTo_1b_ab_apply _ _ p k).trans (pay6_apply x1 0 k)
  have e2 : broadcastTo S256x256 (k0_pay8 (F := Ideal) x1) broadcasts_S256x1_S256x256 (ix2 p k)
      = x1 (ix2 p (0 : Fin 2)) - Cert.PoolSpec.half :=
    (broadcastTo_a1_ab_apply _ _ p k).trans (pay8_apply x1 p 0)
  have e3 : broadcastTo S256x256 (k0_pay9 (F := Ideal) x1) broadcasts_S256x1_S256x256 (ix2 p k)
      = x1 (ix2 p (1 : Fin 2)) + Cert.PoolSpec.half :=
    (broadcastTo_a1_ab_apply _ _ p k).trans (pay9_apply x1 p 0)
  have e4 : broadcastTo S256x256 (k0_pay7 (F := Ideal) x1) broadcasts_S1x256_S256x256 (ix2 p k) = x1 (ix2 k (1 : Fin 2)) :=
    (broadcastTo_1b_ab_apply _ _ p k).trans (pay7_apply x1 0 k)
  have e5 : broadcastTo S256x256 (k0_pay10 (F := Ideal) x1) broadcasts_S256x1_S256x256 (ix2 p k)
      = x1 (ix2 p (1 : Fin 2)) - Cert.PoolSpec.half :=
    (broadcastTo_a1_ab_apply _ _ p k).trans (pay10_apply x1 p 0)
  unfold k0_pay13 Cert.PoolSpec.outside
  simp only [ori, cmpf]
  rw [e1, e2, e3, e4, e5, pay12_apply]

/-! ## The integer masks: the diagonal and "same sequence" -/

/-- jnp's floor division by 64 as it is printed on 32-bit words: the quotient rounded toward zero, less one when the
    operand's sign differs from the divisor's (the word `s`) and the remainder is not zero. -/
def floorDiv64 (s x : BitVec 32) (sx : BitVec 32) (q : BitVec 32) : BitVec 32 :=
  Scalar.select (IntOp.andi (IntOp.cmpi .ne sx s) (IntOp.cmpi .ne (IntOp.remsi .vector x 64#32) 0#32)) (IntOp.subi q 1#32) q

/-- The sign of a word, as printed: the bit of `x > 0` less the bit of `x < 0`, both widened. -/
def sgn (x : BitVec 32) : BitVec 32 :=
  IntOp.subi ((IntOp.cmpi .sgt x 0#32).setWidth 32) ((IntOp.cmpi .slt x 0#32).setWidth 32)

/-- On the words 0 … 255 the printed floor division by 64 is the natural numbers' division. -/
theorem floorDiv64_ofNat : ∀ a : Fin 256,
    floorDiv64 1#32 (BitVec.ofNat 32 a.val) (sgn (BitVec.ofNat 32 a.val)) (IntOp.divsi .vector (BitVec.ofNat 32 a.val) 64#32)
      = BitVec.ofNat 32 (a.val / 64) := by
  decide

/-- The divisor's sign, in the two spellings it is printed in. -/
theorem sgn64_a : Scalar.subi (Scalar.extui (Scalar.cmpi .sgt 64#32 0#32)) (Scalar.extui (Scalar.cmpi .slt 64#32 0#32)) = 1#32 := by
  decide
theorem sgn64_b : Scalar.subi (Scalar.extui 1#1) (Scalar.extui (Scalar.cmpi .slt 64#32 0#32)) = 1#32 := by
  decide

/-- Two words of small natural numbers are equal only when the numbers are. -/
theorem ofNat_inj_small {a b : Nat} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · intro h; rw [h]

/-- The row's sequence number within the block. -/
theorem pay15_apply (p k : Fin 256) : k0_pay15 (ix2 p k) = BitVec.ofNat 32 (p.val / 64) := by
  have h : k0_pay15 (ix2 p k)
      = floorDiv64 (Scalar.subi (Scalar.extui (Scalar.cmpi .sgt 64#32 0#32)) (Scalar.extui (Scalar.cmpi .slt 64#32 0#32)))
          (iota .tc S256x256 32 [0] iota_S256x256_d0_w32 (ix2 p k))
          (sgn (iota .tc S256x256 32 [0] iota_S256x256_d0_w32 (ix2 p k)))
          (IntOp.divsi .vector (iota .tc S256x256 32 [0] iota_S256x256_d0_w32 (ix2 p k)) 64#32) := rfl
  rw [h, sgn64_a, iota_single_apply]
  exact floorDiv64_ofNat p

/-- The column's sequence number within the block, from the pieces the second part of the body hands to the loop. -/
theorem colQuot_apply (p k : Fin 256) :
    Scalar.select
        (IntOp.andi (IntOp.cmpi .ne (k0_pay17 (ix2 p k)) (Scalar.subi (Scalar.extui 1#1) (Scalar.extui (Scalar.cmpi .slt 64#32 0#32))))
          (IntOp.cmpi .ne (IntOp.remsi .vector (iota .tc S256x256 32 [1] Facts₀.iota_S256x256_d1_w32 (ix2 p k)) 64#32) 0#32))
        (IntOp.subi (k0_pay16 (ix2 p k)) 1#32) (k0_pay16 (ix2 p k))
      = BitVec.ofNat 32 (k.val / 64) := by
  have h : Scalar.select
        (IntOp.andi (IntOp.cmpi .ne (k0_pay17 (ix2 p k)) (Scalar.subi (Scalar.extui 1#1) (Scalar.extui (Scalar.cmpi .slt 64#32 0#32))))
          (IntOp.cmpi .ne (IntOp.remsi .vector (iota .tc S256x256 32 [1] Facts₀.iota_S256x256_d1_w32 (ix2 p k)) 64#32) 0#32))
        (IntOp.subi (k0_pay16 (ix2 p k)) 1#32) (k0_pay16 (ix2 p k))
      = floorDiv64 (Scalar.subi (Scalar.extui 1#1) (Scalar.extui (Scalar.cmpi .slt 64#32 0#32)))
          (iota .tc S256x256 32 [1] iota_S256x256_d1_w32 (ix2 p k))
          (sgn (iota .tc S256x256 32 [1] iota_S256x256_d1_w32 (ix2 p k)))
          (IntOp.divsi .vector (iota .tc S256x256 32 [1] iota_S256x256_d1_w32 (ix2 p k)) 64#32) := rfl
  rw [h, sgn64_b, iota_single_apply]
  exact floorDiv64_ofNat k

/-- The diagonal bit. -/
theorem pay14_apply (p k : Fin 256) : k0_pay14 (ix2 p k) = IntOp.cmpi .eq (BitVec.ofNat 32 p.val) (BitVec.ofNat 32 k.val) := by
  have h : k0_pay14 (ix2 p k) = IntOp.cmpi .eq (iota .tc S256x256 32 [0] iota_S256x256_d0_w32 (ix2 p k))
      (iota .tc S256x256 32 [1] iota_S256x256_d1_w32 (ix2 p k)) := rfl
  rw [h, iota_single_apply, iota_single_apply]

/-! ## One-bit words -/

theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

theorem xori_one_eq_one_iff (a : BitVec 1) : IntOp.xori a 1#1 = 1#1 ↔ a = 0#1 := by
  rcases BitVec.eq_zero_or_eq_one a with rfl | rfl <;> decide

theorem eq_zero_iff_ne_one (a : BitVec 1) : a = 0#1 ↔ ¬ a = 1#1 := by
  rcases BitVec.eq_zero_or_eq_one a with rfl | rfl <;> decide

theorem cmpi_eq_eq_one_iff (x y : BitVec 32) : IntOp.cmpi .eq x y = 1#1 ↔ x = y := by
  show BitVec.ofBool (x == y) = 1#1 ↔ x = y
  rw [WordArith.ofBool_eq_one_iff, beq_iff_eq]

/-- The loop's induction variable at trip `t` is the word of `t`. -/
theorem iv_eq (t : Nat) : Scf.iv 0#32 1#32 t = BitVec.ofNat 32 t := by
  unfold Scf.iv
  rw [BitVec.mul_one, BitVec.zero_add]

/-! ## The pair mask of a trip -/

/-- The pair mask of trip `t`: one where the other pedestrian is counted in the trip's cell. -/
def pairMask (x1 : Vec Ideal S256x2 .f32) (t : Fin k0_t1_loop.trips) : IVec S256x256 1 := fun i =>
  IntOp.andi (IntOp.cmpi .eq (k0_pay11 (F := Ideal) x1 i) (Scf.iv 0#32 1#32 t))
    (IntOp.andi
      (IntOp.andi
        (IntOp.xori (k0_pay13 (F := Ideal) (k0_pay6 x1) (k0_pay7 x1) (k0_pay8 x1) (k0_pay9 x1) (k0_pay10 x1) (k0_pay12 x1) i) 1#1)
        (IntOp.xori (k0_pay14 i) 1#1))
      (IntOp.cmpi .eq (k0_pay15 i)
        (Scalar.select
          (IntOp.andi (IntOp.cmpi .ne (k0_pay17 i) (Scalar.subi (Scalar.extui 1#1) (Scalar.extui (Scalar.cmpi .slt 64#32 0#32))))
            (IntOp.cmpi .ne (IntOp.remsi .vector (iota .tc S256x256 32 [1] Facts₀.iota_S256x256_d1_w32 i) 64#32) 0#32))
          (IntOp.subi (k0_pay16 i) 1#32) (k0_pay16 i))))

/-- The pair mask is one exactly where the other pedestrian `k` is in the trip's cell of the centre `p`, inside the square,
    not the centre, and of the centre's sequence. -/
theorem pairMask_eq_one_iff (x1 : Vec Ideal S256x2 .f32) (t : Fin k0_t1_loop.trips) (p k : Fin 256) :
    pairMask x1 t (ix2 p k) = 1#1 ↔
      (Cert.PoolSpec.cell (x1 (ix2 p (0 : Fin 2))) (x1 (ix2 p (1 : Fin 2))) (x1 (ix2 k (0 : Fin 2))) (x1 (ix2 k (1 : Fin 2)))
          = BitVec.ofNat 32 t.val
        ∧ (Cert.PoolSpec.outside (x1 (ix2 p (0 : Fin 2))) (x1 (ix2 p (1 : Fin 2))) (x1 (ix2 k (0 : Fin 2))) (x1 (ix2 k (1 : Fin 2))) = 0#1
          ∧ ¬ p = k) ∧ p.val / 64 = k.val / 64) := by
  unfold pairMask
  rw [andi_eq_one_iff, andi_eq_one_iff, andi_eq_one_iff, xori_one_eq_one_iff, xori_one_eq_one_iff, cmpi_eq_eq_one_iff,
    cmpi_eq_eq_one_iff, colQuot_apply, pay15_apply, pay14_apply, pay13_apply, pay11_apply, iv_eq, eq_zero_iff_ne_one (IntOp.cmpi _ _ _),
    cmpi_eq_eq_one_iff, ofNat_inj_small (by have := p.isLt; omega) (by have := k.isLt; omega),
    ofNat_inj_small (by have := p.isLt; omega) (by have := k.isLt; omega), Fin.val_inj]

end Cert.CellStep
end
-- ==== Proof.CellStep.lean ====
/-
  One grid cell's contribution to the accumulator, read at an index.

  A trip of the loop adds to the carried value, at `(p, q)`, the sum over the 64 channels `d` of
  (the hidden states, channel `d`, of the pedestrians of `p`'s own sequence that are counted in the trip's cell of
  the centre `p`) times the weight block's entry `(d, q)`. The steps: each of the two matrix products into a zero
  accumulator is the plain sum of products over its one contracted coordinate (256 rows, then 64 channels); the
  format changes are the identity on extended reals; the widened 0/1 mask as a factor keeps or drops the other
  factor, since `1 * x = x` and `0 * x = 0` for every extended real; and the sum over the block's 256 rows, whose
  terms vanish unless `p / 64 = k / 64`, collapses to the 64 rows `64 (p / 64) + k` of `p`'s sequence, where the
  pair mask's condition is the specification's `picks` (not the centre: `k = p % 64` excluded).
-/
import proofs.«128457_j3169685865097_1_alg».proof.Proof.MaskBits

noncomputable section
namespace Cert.CellStep
open Idealize.ShloMosaic Idealize.ShloMosaic.ValueIdx Cert.KernelIdeal Cert.KernelIdeal.Gen

/-! ## The two products of a trip, read at an index -/

theorem lhs1_0 (i : S256x64.Idx) (c : dot_S256x256_S256x64_S256x64_1_0_0_1_n_n.contr.Idx) :
    (dot_S256x256_S256x64_S256x64_1_0_0_1_n_n.lhsIdx i c 0).val = (i 0).val := by
  unfold DotDims.lhsIdx
  rw [dif_neg (show ¬(0 : Fin S256x256.rank) ∈ dot_S256x256_S256x64_S256x64_1_0_0_1_n_n.lhsBatch by decide),
    dif_pos (show (0 : Fin S256x256.rank) ∈ dot_S256x256_S256x64_S256x64_1_0_0_1_n_n.lhsNonContracting by decide)]
  rfl
theorem rhs1_1 (i : S256x64.Idx) (c : dot_S256x256_S256x64_S256x64_1_0_0_1_n_n.contr.Idx) :
    (dot_S256x256_S256x64_S256x64_1_0_0_1_n_n.rhsIdx i c 1).val = (i 1).val := by
  unfold DotDims.rhsIdx
  rw [dif_neg (show ¬(1 : Fin S256x64.rank) ∈ dot_S256x256_S256x64_S256x64_1_0_0_1_n_n.rhsBatch by decide),
    dif_pos (show (1 : Fin S256x64.rank) ∈ dot_S256x256_S256x64_S256x64_1_0_0_1_n_n.rhsNonContracting by decide)]
  rfl
theorem lhs2_0 (i : S256x64.Idx) (c : dot_S256x64_S64x64_S256x64_1_0_0_1_n_n.contr.Idx) :
    (dot_S256x64_S64x64_S256x64_1_0_0_1_n_n.lhsIdx i c 0).val = (i 0).val := by
  unfold DotDims.lhsIdx
  rw [dif_neg (show ¬(0 : Fin S256x64.rank) ∈ dot_S256x64_S64x64_S256x64_1_0_0_1_n_n.lhsBatch by decide),
    dif_pos (show (0 : Fin S256x64.rank) ∈ dot_S256x64_S64x64_S256x64_1_0_0_1_n_n.lhsNonContracting by decide)]
  rfl
theorem rhs2_1 (i : S256x64.Idx) (c : dot_S256x64_S64x64_S256x64_1_0_0_1_n_n.contr.Idx) :
    (dot_S256x64_S64x64_S256x64_1_0_0_1_n_n.rhsIdx i c 1).val = (i 1).val := by
  unfold DotDims.rhsIdx
  rw [dif_neg (show ¬(1 : Fin S64x64.rank) ∈ dot_S256x64_S64x64_S256x64_1_0_0_1_n_n.rhsBatch by decide),
    dif_pos (show (1 : Fin S64x64.rank) ∈ dot_S256x64_S64x64_S256x64_1_0_0_1_n_n.rhsNonContracting by decide)]
  rfl

/-- The first product (mask times hidden states) into the zero accumulator: row `p` of the mask against column `d`. -/
theorem matmul1_apply (A : FVec Ideal S256x256 .bf16) (B : FVec Ideal S256x64 .bf16) (p : Fin 256) (d : Fin 64) :
    matmul dot_S256x256_S256x64_S256x64_1_0_0_1_n_n none A B (constant (F := Ideal) S256x64 .f32 0x00000000#32) (ix2 p d)
      = ∑ k : Fin 256, A (ix2 p k) * B (ix2 k d) := by
  simp only [matmul]
  rw [Ideal.matmul_constant_zero_apply,
    ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 p d)
      ((contrEquiv1 dot_S256x256_S256x64_S256x64_1_0_0_1_n_n 256 rfl rfl).symm k) = ix2 p k := funext fun a => Fin.ext (by
    match a with
    | ⟨0, _⟩ => exact lhs1_0 _ _
    | ⟨1, _⟩ => exact (dot_S256x256_S256x64_S256x64_1_0_0_1_n_n.lhsIdx_val_of_single rfl _ _).trans hk)
  have er : dot_S256x256_S256x64_S256x64_1_0_0_1_n_n.rhsIdx (ix2 p d)
      ((contrEquiv1 dot_S256x256_S256x64_S256x64_1_0_0_1_n_n 256 rfl rfl).symm k) = ix2 k d := funext fun a => Fin.ext (by
    match a with
    | ⟨0, _⟩ => exact (dot_S256x256_S256x64_S256x64_1_0_0_1_n_n.rhsIdx_val_of_single rfl _ _).trans hk
    | ⟨1, _⟩ => exact rhs1_1 _ _)
  rw [el, er]

/-- The second product (pooled block times weight block) into the zero accumulator. -/
theorem matmul2_apply (A : FVec Ideal S256x64 .bf16) (B : FVec Ideal S64x64 .bf16) (p : Fin 256) (q : Fin 64) :
    matmul dot_S256x64_S64x64_S256x64_1_0_0_1_n_n none A B (constant (F := Ideal) S256x64 .f32 0x00000000#32) (ix2 p q)
      = ∑ d : Fin 64, A (ix2 p d) * B (ix2 d q) := by
  simp only [matmul]
  rw [Ideal.matmul_constant_zero_apply,
    ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 p q)
      ((contrEquiv1 dot_S256x64_S64x64_S256x64_1_0_0_1_n_n 64 rfl rfl).symm k) = ix2 p k := funext fun a => Fin.ext (by
    match a with
    | ⟨0, _⟩ => exact lhs2_0 _ _
    | ⟨1, _⟩ => exact (dot_S256x64_S64x64_S256x64_1_0_0_1_n_n.lhsIdx_val_of_single rfl _ _).trans hk)
  have er : dot_S256x64_S64x64_S256x64_1_0_0_1_n_n.rhsIdx (ix2 p q)
      ((contrEquiv1 dot_S256x64_S64x64_S256x64_1_0_0_1_n_n 64 rfl rfl).symm k) = ix2 k q := funext fun a => Fin.ext (by
    match a with
    | ⟨0, _⟩ => exact (dot_S256x64_S64x64_S256x64_1_0_0_1_n_n.rhsIdx_val_of_single rfl _ _).trans hk
    | ⟨1, _⟩ => exact rhs2_1 _ _)
  rw [el, er]

/-! ## The mask as a float factor -/

/-- A widened bit read as a signed integer is one or zero. -/
theorem sitofp_bit (b : BitVec 1) :
    FloatOps.sitofp (F := Ideal) .f32 (b.setWidth 32) = if b = 1#1 then (1 : EReal) else 0 := by
  rcases BitVec.eq_zero_or_eq_one b with rfl | rfl
  · have h : ((0#1 : BitVec 1).setWidth 32).toInt = 0 := by decide
    show (((((0#1 : BitVec 1).setWidth 32).toInt : ℤ) : ℝ) : EReal) = _
    rw [h, if_neg (by decide)]
    simp
  · have h : ((1#1 : BitVec 1).setWidth 32).toInt = 1 := by decide
    show (((((1#1 : BitVec 1).setWidth 32).toInt : ℤ) : ℝ) : EReal) = _
    rw [h, if_pos rfl]
    simp

/-- The bit as a factor keeps or drops the other factor (`1 * x = x` and `0 * x = 0` hold for every extended real). -/
theorem bit_mul (b : BitVec 1) (h : EReal) :
    FloatOps.sitofp (F := Ideal) .f32 (b.setWidth 32) * h = if b = 1#1 then h else 0 := by
  rw [sitofp_bit]
  split
  · exact one_mul h
  · exact zero_mul h

/-! ## The sum over the block's rows keeps the centre's own sequence -/

/-- A sum over the 256 rows of a block whose terms vanish outside the sequence of row `p` is the sum over that
    sequence's 64 pedestrians. -/
theorem sum_block (p : Fin 256) (g : Fin 256 → EReal) (hg : ∀ k' : Fin 256, p.val / 64 ≠ k'.val / 64 → g k' = 0) :
    ∑ k' : Fin 256, g k' = ∑ k : Fin 64, g (Cert.PoolSpec.blockMate p k) := by
  rw [← Equiv.sum_comp (finProdFinEquiv : Fin 4 × Fin 64 ≃ Fin 256) g, Fintype.sum_prod_type]
  rw [Finset.sum_eq_single (⟨p.val / 64, by have := p.isLt; omega⟩ : Fin 4)]
  · refine Finset.sum_congr rfl fun k _ => congrArg g (Fin.ext ?_)
    show k.val + 64 * (p.val / 64) = p.val / 64 * 64 + k.val
    omega
  · intro a _ ha
    refine Finset.sum_eq_zero fun k _ => hg _ ?_
    have ha' : a.val ≠ p.val / 64 := fun h => ha (Fin.ext h)
    show p.val / 64 ≠ (k.val + 64 * a.val) / 64
    have := k.isLt
    omega
  · intro h
    exact absurd (Finset.mem_univ _) h

/-! ## One trip -/

/-- the grid cell a trip of the loop works on -/
def cellOfTrip (t : Fin k0_t1_loop.trips) : Fin 64 := ⟨t.val, Nat.lt_of_lt_of_le t.isLt k0_t1_abs.2.1⟩

/-- The trip's payload, with its pair mask named. -/
theorem pay2_eq (x1 : Vec Ideal S256x2 .f32) (x0 : Vec Ideal S256x64 .f32) (t : Fin k0_t1_loop.trips)
    (acc : FVec Ideal S256x64 .f32) (wb : Vec Ideal S64x64 .f32) :
    k0_pay2 (F := Ideal) (k0_pay11 x1)
        (k0_pay13 (k0_pay6 x1) (k0_pay7 x1) (k0_pay8 x1) (k0_pay9 x1) (k0_pay10 x1) (k0_pay12 x1))
        (iota .tc S256x256 32 [1] Facts₀.iota_S256x256_d1_w32) k0_pay14 k0_pay15 64#32 k0_pay16 k0_pay17
        (1#1) x0 t acc wb
      = addf acc (matmul dot_S256x64_S64x64_S256x64_1_0_0_1_n_n none
          (truncf .bf16 (matmul dot_S256x256_S256x64_S256x64_1_0_0_1_n_n none
            (truncf .bf16 (sitofp .f32 (extui 32 (pairMask x1 t) natLt_1_32)) bitsLt_bf16_f32)
            (truncf .bf16 (shapeCast S256x64 x0 shapeCasts_S256x64_S256x64) bitsLt_bf16_f32)
            (constant (F := Ideal) S256x64 .f32 0x00000000#32)) bitsLt_bf16_f32)
          (truncf .bf16 wb bitsLt_bf16_f32) (constant (F := Ideal) S256x64 .f32 0x00000000#32)) := rfl

/-- The pair mask at a pedestrian of the centre's own sequence is the specification's `picks`. -/
theorem pairMask_blockMate (x1 : Vec Ideal S256x2 .f32) (t : Fin k0_t1_loop.trips) (p : Fin 256) (k : Fin 64) :
    pairMask x1 t (ix2 p (Cert.PoolSpec.blockMate p k)) = 1#1 ↔
      Cert.PoolSpec.picks (x1 (ix2 p (0 : Fin 2))) (x1 (ix2 p (1 : Fin 2)))
        (x1 (ix2 (Cert.PoolSpec.blockMate p k) (0 : Fin 2))) (x1 (ix2 (Cert.PoolSpec.blockMate p k) (1 : Fin 2)))
        (k.val = p.val % 64) (cellOfTrip t) := by
  rw [pairMask_eq_one_iff]
  unfold Cert.PoolSpec.picks
  have h1 : p.val / 64 = (Cert.PoolSpec.blockMate p k).val / 64 := by
    show p.val / 64 = (p.val / 64 * 64 + k.val) / 64
    have := k.isLt
    omega
  have h2 : p = Cert.PoolSpec.blockMate p k ↔ k.val = p.val % 64 := by
    rw [Fin.ext_iff]
    show p.val = p.val / 64 * 64 + k.val ↔ _
    omega
  rw [h2]
  show _ ↔ _ ∧ _ ∧ _ = BitVec.ofNat 32 t.val
  tauto

theorem cell_step (x1 : Vec Ideal S256x2 .f32) (x0 : Vec Ideal S256x64 .f32) (t : Fin k0_t1_loop.trips)
    (acc : FVec Ideal S256x64 .f32) (wb : Vec Ideal S64x64 .f32) (p : Fin 256) (q : Fin 64) :
    k0_pay2 (F := Ideal) (k0_pay11 x1)
        (k0_pay13 (k0_pay6 x1) (k0_pay7 x1) (k0_pay8 x1) (k0_pay9 x1) (k0_pay10 x1) (k0_pay12 x1))
        (iota .tc S256x256 32 [1] Facts₀.iota_S256x256_d1_w32) k0_pay14 k0_pay15 64#32 k0_pay16 k0_pay17
        (1#1) x0 t acc wb (ix2 p q)
      = acc (ix2 p q) + ∑ d : Fin 64,
          (∑ k : Fin 64, if Cert.PoolSpec.picks (x1 (ix2 p (0 : Fin 2))) (x1 (ix2 p (1 : Fin 2)))
                (x1 (ix2 (Cert.PoolSpec.blockMate p k) (0 : Fin 2))) (x1 (ix2 (Cert.PoolSpec.blockMate p k) (1 : Fin 2)))
                (k.val = p.val % 64) (cellOfTrip t)
              then x0 (ix2 (Cert.PoolSpec.blockMate p k) d) else 0) * wb (ix2 d q) := by
  rw [pay2_eq]
  show acc (ix2 p q) + matmul (F := Ideal) dot_S256x64_S64x64_S256x64_1_0_0_1_n_n none _ _ _ (ix2 p q) = _
  rw [matmul2_apply]
  refine congrArg (acc (ix2 p q) + ·) (Finset.sum_congr rfl fun d _ => ?_)
  refine congrArg (· * wb (ix2 d q)) ?_
  show matmul (F := Ideal) dot_S256x256_S256x64_S256x64_1_0_0_1_n_n none _ _ _ (ix2 p d) = _
  rw [matmul1_apply, shapeCast_self]
  have hterm : ∀ k' : Fin 256,
      (truncf .bf16 (sitofp (F := Ideal) .f32 (extui 32 (pairMask x1 t) natLt_1_32)) bitsLt_bf16_f32) (ix2 p k')
          * (truncf .bf16 (x0 : FVec Ideal S256x64 .f32) bitsLt_bf16_f32) (ix2 k' d)
        = if pairMask x1 t (ix2 p k') = 1#1 then x0 (ix2 k' d) else 0 := fun k' => bit_mul _ _
  rw [Finset.sum_congr rfl fun k' _ => hterm k']
  rw [sum_block p (fun k' => if pairMask x1 t (ix2 p k') = 1#1 then x0 (ix2 k' d) else 0) ?_]
  · exact Finset.sum_congr rfl fun k _ => if_congr (pairMask_blockMate x1 t p k) rfl rfl
  · intro k' hk'
    refine if_neg fun h => hk' ?_
    exact ((pairMask_eq_one_iff x1 t p k').mp h).2.2

end Cert.CellStep
end
-- ==== Proof.RefTail.lean ====
/-
  The reference's last lines are the batch normalisation and rectifier of its linear layer's output.
-/
import proofs.«128457_j3169685865097_1_alg».proof.Proof.Gen.ReferenceIdeal.Read
import proofs.«128457_j3169685865097_1_alg».proof.Proof.BatchNorm

noncomputable section

namespace Cert.RefTail

open Idealize.ShloMosaic Cert.ReferenceIdeal Cert.ReferenceIdeal.Gen Cert.ReferenceIdeal.Read Cert.BatchNorm

/-- From the layer's output (the stage before the first mean) to the result: mean, variance, scale, shift, rectify. -/
theorem ref_tail (x0 : (⟨S1x16384x64, .f32⟩ : BufTy).Contents (Elt Ideal)) (x2 : (⟨S16384x2, .f32⟩ : BufTy).Contents (Elt Ideal))
    (x3 : (⟨S4096x64, .f32⟩ : BufTy).Contents (Elt Ideal)) (x4 x5 x6 : (⟨S64, .f32⟩ : BufTy).Contents (Elt Ideal)) :
    val_main_v130 (F := Ideal) x0 x2 x3 x4 x5 x6
      = bnRelu Facts₀.reducesTo_S16384x64_S64_d0 Facts₀.h_S_ Facts₀.bcast_S_S64 Facts₀.bcast_S64_S1x64_1
          Facts₀.bcast_S1x64_S16384x64_0_1 Facts₀.bcast_S_S16384x64 (val_main_v103 (F := Ideal) x0 x2 x3 x4) x5 x6 := by
  unfold val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_cst_14 val_main_cst_15 val_main_cst_16 val_main_cst_17 val_main_cst_18 val_main_cst_19 bnRelu
  rfl

end Cert.RefTail

end
-- ==== Proof.LibGatherScatterRows.lean ====
/-
  ROW GATHER AND ROW SCATTER-ADD READ AT AN INDEX.

  A gather of whole rows of a two-axis array `x : [N, C]` at a column of start indices `idx : [M, 1]` (offset axis 1,
  collapsed axis 0, start index map `[0]`, index vector axis 1, slice sizes `[1, C]`) has, at `(e, c)`, the element
  `x[clamp(idx[e, 0]), c]`: the start index is read as a signed integer and clamped into `[0, N − 1]`. The same for a
  one-axis operand `x : [N]` (no offset axis, slice sizes `[1]`): at `e` the element `x[clamp(idx[e, 0])]`.

  A scatter-add of rows `upd : [M, C]` into `x : [N, C]` at the same column of indices (update window axis 1, inserted
  window axis 0, scatter-dims-to-operand-dims `[0]`, index vector axis 1), over the extended reals, has at `(v, c)` the
  element `x[v, c] + ∑ e, [idx[e, 0] = v] · upd[e, c]`: the index is read signed and NOT clamped, so an update whose row
  index is outside `[0, N)` meets no `v` and is dropped. The same for one-axis `x : [N]`, `upd : [M]`.

  Last, for any scatter dimension numbers: a scatter-add of real updates into a real element is real.

  Each statement comes twice: for the record of dimension numbers written out with its well-formedness proof as an
  argument (`…_lit`), and for an arbitrary record whose fields are fixed by equations (each `rfl` for a literal record).
-/
import Idealize.ShloMosaic.Lib.ValueIdx
import Idealize.ShloMosaic.PureOps.Contract

noncomputable section

open scoped BigOperators

namespace Idealize.ShloMosaic.RowsIdx

open Idealize.ShloMosaic Idealize.ShloMosaic.ValueIdx

/-! ## Gather of rows of a two-axis array -/

section Gather
variable {α : Type}

/-- The dimension numbers of a row gather: operand `[N, C]`, start indices `[M, 1]`, result `[M, C]`; the result's
    axis 1 is the offset axis, the operand's axis 0 is collapsed and is the one the start index addresses, the index
    vector lies along axis 1 of the start indices, and a slice is one whole row. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather at `(e, c)` is the operand at row `idx[e, 0]` — read signed and clamped into `[0, N − 1]` — and
    column `c`: on axis 0 the operand index is the clamped start (no batching, no offset: the axis is collapsed), on
    axis 1 the start is `0` (the start index map does not name it) and the offset coordinate is `c`. -/
theorem gather_rows_lit {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N M C wf).start (ix2 e c) idx 0 + (rowGatherDims N M C wf).batchCoord (ix2 e c) 0
      + (rowGatherDims N M C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e c) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N M C wf).start (ix2 e c) idx 1 + (rowGatherDims N M C wf).batchCoord (ix2 e c) 1
      + (rowGatherDims N M C wf).offCoord (ix2 e c) 1 = c.val
    rw [GatherDims.batchCoord_eq_zero _ _ _ List.not_mem_nil]
    unfold GatherDims.start
    rw [dif_neg (show (1 : Fin 2) ∉ (rowGatherDims N M C wf).startIndexMap from
      (show (1 : Fin 2) ∉ ([0] : List (Fin 2)) by decide))]
    unfold GatherDims.offCoord
    rw [dif_pos (show (1 : Fin 2) ∈ (rowGatherDims N M C wf).sKept from
      (GatherDims.mem_sKept _ _).mpr ⟨(show (1 : Fin 2) ∉ ([0] : List (Fin 2)) by decide), List.not_mem_nil⟩)]
    simp only [Nat.add_zero, Nat.zero_add]
    rfl

/-- The same for ANY record of gather dimension numbers of these shapes whose fields are those of a row gather. -/
theorem gather_rows_apply {N M C w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (c : Fin C) :
    Host.gather d x idx (ix2 e c) = x (ix2 ⟨min (idx (ix2 e 0)).toInt.toNat (N - 1), by omega⟩ c) := by
  obtain ⟨od, cd, ob, sb, sm, iv, ss, wf⟩ := d
  simp only at hod hcd hob hsb hsm hiv hss
  subst hod hcd hob hsb hsm hiv hss
  exact gather_rows_lit hN wf x idx e c

end Gather

/-! ## Gather of elements of a one-axis array -/

section GatherVec
variable {α : Type}

/-- The dimension numbers of an element gather: operand `[N]`, start indices `[M, 1]`, result `[M]`; no offset axis,
    the operand's one axis collapsed and addressed by the start index, the index vector along axis 1 of the start
    indices, a slice one element. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The element gather at `e` is the operand at `idx[e, 0]`, read signed and clamped into `[0, N − 1]`. -/
theorem gather_vec_lit {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The same for ANY record of gather dimension numbers of these shapes whose fields are those of an element gather. -/
theorem gather_vec_apply {N M w : Nat} (hN : 0 < N)
    (d : GatherDims ⟨1, ![N]⟩ ⟨2, ![M, 1]⟩ ⟨1, ![M]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 ⟨min (idx (ix2 e 0)).toInt.toNat (N - 1), by omega⟩) := by
  obtain ⟨od, cd, ob, sb, sm, iv, ss, wf⟩ := d
  simp only at hod hcd hob hsb hsm hiv hss
  subst hod hcd hob hsb hsm hiv hss
  exact gather_vec_lit hN wf x idx e

end GatherVec

/-! ## Scatter-add of rows into a two-axis array, over the extended reals -/

section Scatter

/-- The dimension numbers of a row scatter: operand `[N, C]`, scatter indices `[M, 1]`, updates `[M, C]`; the updates'
    axis 1 is the window axis (it goes to the operand's axis 1), the operand's axis 0 is inserted and is the one the
    scatter index addresses, and the index vector lies along axis 1 of the scatter indices. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- On the operand's axis 0 the window of update `j` starts at the signed scatter index `idx[j₀, 0]`. -/
theorem rowScatter_start0 (j : (⟨2, ![M, C]⟩ : Shape).Idx) (idx : IVec ⟨2, ![M, 1]⟩ w) :
    (rowScatterDims N M C wf).start j idx 0 = (idx (ix2 (j 0) 0)).toInt := by
  unfold ScatterDims.start
  rw [dif_pos (show (0 : Fin 2) ∈ (rowScatterDims N M C wf).scatterDimsToOperandDims from List.mem_singleton.mpr rfl)]
  have hsi : (rowScatterDims N M C wf).siIdx j ⟨List.idxOf (0 : Fin 2) (rowScatterDims N M C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the operand's axis 1, which the scatter-dims-to-operand-dims map does not name, the window starts at `0`. -/
theorem rowScatter_start1 (j : (⟨2, ![M, C]⟩ : Shape).Idx) (idx : IVec ⟨2, ![M, 1]⟩ w) :
    (rowScatterDims N M C wf).start j idx 1 = 0 := by
  unfold ScatterDims.start
  rw [dif_neg (show (1 : Fin 2) ∉ (rowScatterDims N M C wf).scatterDimsToOperandDims from
    (show (1 : Fin 2) ∉ ([0] : List (Fin 2)) by decide))]

/-- The operand's axis 0 is an inserted window axis: the window coordinate there is `0`. -/
theorem rowScatter_window0 (j : (⟨2, ![M, C]⟩ : Shape).Idx) :
    (rowScatterDims N M C wf).window j 0 = 0 := by
  unfold ScatterDims.window
  rw [dif_neg (show (0 : Fin 2) ∉ (rowScatterDims N M C wf).sKept from
    (show (0 : Fin 2) ∉ (List.finRange 2).filter (· ∉ ([0] : List (Fin 2))) by decide))]

/-- On the operand's axis 1 the window coordinate of update `j` is `j`'s column. -/
theorem rowScatter_window1 (j : (⟨2, ![M, C]⟩ : Shape).Idx) :
    (rowScatterDims N M C wf).window j 1 = (j 1).val := by
  unfold ScatterDims.window
  rw [dif_pos (show (1 : Fin 2) ∈ (rowScatterDims N M C wf).sKept from
    (show (1 : Fin 2) ∈ (List.finRange 2).filter (· ∉ ([0] : List (Fin 2))) by decide))]
  rfl

/-- Update `j` lands at `(v, c)` exactly when its signed row index `idx[j₀, 0]` is `v` and its column is `c`; an update
    whose row index is negative or `≥ N` lands nowhere. -/
theorem rowScatter_resultIdx?_eq_some (j : (⟨2, ![M, C]⟩ : Shape).Idx) (idx : IVec ⟨2, ![M, 1]⟩ w)
    (v : Fin N) (c : Fin C) :
    (rowScatterDims N M C wf).resultIdx? j idx = some (ix2 v c)
      ↔ (idx (ix2 (j 0) 0)).toInt = (v.val : Int) ∧ j 1 = c := by
  have hv := v.isLt
  have hc := c.isLt
  have hj := idx2_lt1 j
  unfold ScatterDims.resultIdx?
  constructor
  · intro h
    split at h
    · rename_i hh
      have h' := Option.some.inj h
      have h0 : ((rowScatterDims N M C wf).start j idx 0 + ((rowScatterDims N M C wf).window j 0 : Nat)).toNat = v.val :=
        congrArg (fun i : (⟨2, ![N, C]⟩ : Shape).Idx => (i 0).val) h'
      have h1 : ((rowScatterDims N M C wf).start j idx 1 + ((rowScatterDims N M C wf).window j 1 : Nat)).toNat = c.val :=
        congrArg (fun i : (⟨2, ![N, C]⟩ : Shape).Idx => (i 1).val) h'
      have b0 := (hh 0).1
      rw [rowScatter_start0, rowScatter_window0] at h0 b0
      rw [rowScatter_start1, rowScatter_window1] at h1
      refine ⟨by omega, Fin.ext (by omega)⟩
    · exact absurd h (by simp)
  · rintro ⟨h0, h1⟩
    have hh : ∀ a, 0 ≤ (rowScatterDims N M C wf).start j idx a + ((rowScatterDims N M C wf).window j a : Nat)
        ∧ (rowScatterDims N M C wf).start j idx a + ((rowScatterDims N M C wf).window j a : Nat)
          < ((⟨2, ![N, C]⟩ : Shape).size a : Nat) := by
      intro a
      match a with
      | ⟨0, _⟩ =>
        show 0 ≤ (rowScatterDims N M C wf).start j idx 0 + ((rowScatterDims N M C wf).window j 0 : Nat)
          ∧ (rowScatterDims N M C wf).start j idx 0 + ((rowScatterDims N M C wf).window j 0 : Nat) < (N : Int)
        rw [rowScatter_start0, rowScatter_window0]; omega
      | ⟨1, _⟩ =>
        show 0 ≤ (rowScatterDims N M C wf).start j idx 1 + ((rowScatterDims N M C wf).window j 1 : Nat)
          ∧ (rowScatterDims N M C wf).start j idx 1 + ((rowScatterDims N M C wf).window j 1 : Nat) < (C : Int)
        rw [rowScatter_start1, rowScatter_window1]; omega
    rw [dif_pos hh]
    congr 1
    funext a
    refine Fin.ext ?_
    match a with
    | ⟨0, _⟩ =>
      show ((rowScatterDims N M C wf).start j idx 0 + ((rowScatterDims N M C wf).window j 0 : Nat)).toNat = v.val
      rw [rowScatter_start0, rowScatter_window0]; omega
    | ⟨1, _⟩ =>
      show ((rowScatterDims N M C wf).start j idx 1 + ((rowScatterDims N M C wf).window j 1 : Nat)).toNat = c.val
      rw [rowScatter_start1, rowScatter_window1, ← h1]; omega

/-- The row scatter-add over the extended reals at `(v, c)`: the operand's element plus the sum, over the update rows
    `e` whose signed index `idx[e, 0]` is `v`, of `upd[e, c]`. The sum over the update elements landing at `(v, c)`
    is split by coordinates; for each row the inner sum over columns keeps the one column `c`. -/
theorem scatterAdd_rows_lit {φ : FTy} (x : FVec Ideal ⟨2, ![N, C]⟩ φ) (idx : IVec ⟨2, ![M, 1]⟩ w)
    (upd : FVec Ideal ⟨2, ![M, C]⟩ φ) (v : Fin N) (c : Fin C) :
    Host.scatterAdd (F := Ideal) (rowScatterDims N M C wf) x idx upd (ix2 v c)
      = x (ix2 v c) + ∑ e : Fin M, if (idx (ix2 e 0)).toInt = (v.val : Int) then upd (ix2 e c) else 0 := by
  show Ideal.hostScatterAdd (rowScatterDims N M C wf) x idx upd (ix2 v c) = _
  unfold Ideal.hostScatterAdd
  congr 1
  rw [Finset.sum_filter, sum_idx2]
  refine Finset.sum_congr rfl fun e _ => ?_
  by_cases he : (idx (ix2 e 0)).toInt = (v.val : Int)
  · rw [if_pos he]
    have : ∀ c' : Fin C, (if (rowScatterDims N M C wf).resultIdx? (ix2 e c') idx = some (ix2 v c) then upd (ix2 e c') else 0)
        = if c' = c then upd (ix2 e c') else 0 := fun c' =>
      if_congr ((rowScatter_resultIdx?_eq_some wf (ix2 e c') idx v c).trans ⟨fun h => h.2, fun h => ⟨he, h⟩⟩) rfl rfl
    rw [Finset.sum_congr rfl fun c' _ => this c', Finset.sum_ite_eq' Finset.univ c]
    simp
  · rw [if_neg he]
    refine Finset.sum_eq_zero fun c' _ => ?_
    rw [if_neg]
    intro h
    exact he ((rowScatter_resultIdx?_eq_some wf (ix2 e c') idx v c).mp h).1

/-- The same for ANY record of scatter dimension numbers of these shapes whose fields are those of a row scatter. -/
theorem scatterAdd_rows_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ) (v : Fin N) (c : Fin C) :
    Host.scatterAdd (F := Ideal) d x idx upd (ix2 v c)
      = x (ix2 v c) + ∑ e : Fin M, if (idx (ix2 e 0)).toInt = (v.val : Int) then upd (ix2 e c) else 0 := by
  obtain ⟨uw, iw, sd, iv, wf'⟩ := d
  simp only at huw hiw hsd hiv
  subst huw hiw hsd hiv
  exact scatterAdd_rows_lit wf' x idx upd v c

end Scatter

/-! ## Scatter-add of elements into a one-axis array, over the extended reals -/

section ScatterVec

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- The dimension numbers of an element scatter: operand `[N]`, scatter indices `[M, 1]`, updates `[M]`; no window
    axis, the operand's one axis inserted and addressed by the scatter index, the index vector along axis 1 of the
    scatter indices. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- On the operand's one axis the window of update `j` starts at the signed scatter index `idx[j₀, 0]`. -/
theorem vecScatter_start0 (j : (⟨1, ![M]⟩ : Shape).Idx) (idx : IVec ⟨2, ![M, 1]⟩ w) :
    (vecScatterDims N M wf).start j idx 0 = (idx (ix2 (j 0) 0)).toInt := by
  unfold ScatterDims.start
  rw [dif_pos (show (0 : Fin 1) ∈ (vecScatterDims N M wf).scatterDimsToOperandDims from List.mem_singleton.mpr rfl)]
  have hsi : (vecScatterDims N M wf).siIdx j ⟨List.idxOf (0 : Fin 1) (vecScatterDims N M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is an inserted window axis: the window coordinate there is `0`. -/
theorem vecScatter_window0 (j : (⟨1, ![M]⟩ : Shape).Idx) :
    (vecScatterDims N M wf).window j 0 = 0 := by
  unfold ScatterDims.window
  rw [dif_neg (show (0 : Fin 1) ∉ (vecScatterDims N M wf).sKept from
    (show (0 : Fin 1) ∉ (List.finRange 1).filter (· ∉ ([0] : List (Fin 1))) by decide))]

/-- Update `j` lands at `v` exactly when its signed index `idx[j₀, 0]` is `v`; an update whose index is negative or
    `≥ N` lands nowhere. -/
theorem vecScatter_resultIdx?_eq_some (j : (⟨1, ![M]⟩ : Shape).Idx) (idx : IVec ⟨2, ![M, 1]⟩ w) (v : Fin N) :
    (vecScatterDims N M wf).resultIdx? j idx = some (ix1 v) ↔ (idx (ix2 (j 0) 0)).toInt = (v.val : Int) := by
  have hv := v.isLt
  unfold ScatterDims.resultIdx?
  constructor
  · intro h
    split at h
    · rename_i hh
      have h' := Option.some.inj h
      have h0 : ((vecScatterDims N M wf).start j idx 0 + ((vecScatterDims N M wf).window j 0 : Nat)).toNat = v.val :=
        congrArg (fun i : (⟨1, ![N]⟩ : Shape).Idx => (i 0).val) h'
      have b0 := (hh 0).1
      rw [vecScatter_start0, vecScatter_window0] at h0 b0
      omega
    · exact absurd h (by simp)
  · intro h0
    have hh : ∀ a, 0 ≤ (vecScatterDims N M wf).start j idx a + ((vecScatterDims N M wf).window j a : Nat)
        ∧ (vecScatterDims N M wf).start j idx a + ((vecScatterDims N M wf).window j a : Nat)
          < ((⟨1, ![N]⟩ : Shape).size a : Nat) := by
      intro a
      obtain rfl : a = 0 := Subsingleton.elim _ _
      show 0 ≤ (vecScatterDims N M wf).start j idx 0 + ((vecScatterDims N M wf).window j 0 : Nat)
        ∧ (vecScatterDims N M wf).start j idx 0 + ((vecScatterDims N M wf).window j 0 : Nat) < (N : Int)
      rw [vecScatter_start0, vecScatter_window0]; omega
    rw [dif_pos hh]
    congr 1
    funext a
    obtain rfl : a = 0 := Subsingleton.elim _ _
    refine Fin.ext ?_
    show ((vecScatterDims N M wf).start j idx 0 + ((vecScatterDims N M wf).window j 0 : Nat)).toNat = v.val
    rw [vecScatter_start0, vecScatter_window0]; omega

/-- The element scatter-add over the extended reals at `v`: the operand's element plus the sum, over the updates `e`
    whose signed index `idx[e, 0]` is `v`, of `upd[e]`. -/
theorem scatterAdd_vec_lit {φ : FTy} (x : FVec Ideal ⟨1, ![N]⟩ φ) (idx : IVec ⟨2, ![M, 1]⟩ w)
    (upd : FVec Ideal ⟨1, ![M]⟩ φ) (v : Fin N) :
    Host.scatterAdd (F := Ideal) (vecScatterDims N M wf) x idx upd (ix1 v)
      = x (ix1 v) + ∑ e : Fin M, if (idx (ix2 e 0)).toInt = (v.val : Int) then upd (ix1 e) else 0 := by
  show Ideal.hostScatterAdd (vecScatterDims N M wf) x idx upd (ix1 v) = _
  unfold Ideal.hostScatterAdd
  congr 1
  rw [Finset.sum_filter, sum_idx1]
  exact Finset.sum_congr rfl fun e _ => if_congr (vecScatter_resultIdx?_eq_some wf (ix1 e) idx v) rfl rfl

/-- The same for ANY record of scatter dimension numbers of these shapes whose fields are those of an element scatter. -/
theorem scatterAdd_vec_apply {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ) (v : Fin N) :
    Host.scatterAdd (F := Ideal) d x idx upd (ix1 v)
      = x (ix1 v) + ∑ e : Fin M, if (idx (ix2 e 0)).toInt = (v.val : Int) then upd (ix1 e) else 0 := by
  obtain ⟨uw, iw, sd, iv, wf'⟩ := d
  simp only at huw hiw hsd hiv
  subst huw hiw hsd hiv
  exact scatterAdd_vec_lit wf' x idx upd v

end ScatterVec

/-! ## A scatter-add of reals is real -/

section Real

/-- A finite sum of real numbers, taken in the extended reals, is the real sum. -/
theorem coe_finset_sum {ι : Type*} (s : Finset ι) (f : ι → ℝ) :
    ∑ i ∈ s, ((f i : ℝ) : EReal) = ((∑ i ∈ s, f i : ℝ) : EReal) := by
  classical
  refine Finset.induction_on s ?_ ?_
  · simp
  · intro a t ha ih
    rw [Finset.sum_insert ha, Finset.sum_insert ha, ih, EReal.coe_add]

/-- For any scatter dimension numbers: where the operand's element is real and every update is real, the scatter-add's
    element is real — a real plus a finite sum of reals (whichever updates land there). -/
theorem scatterAdd_real {s si u : Shape} {w : Nat} {φ : FTy} (d : ScatterDims s si u) (x : FVec Ideal s φ)
    (idx : IVec si w) (upd : FVec Ideal u φ) (i : s.Idx)
    (hx : ∃ r : ℝ, x i = (r : EReal)) (hupd : ∀ j, ∃ r : ℝ, upd j = (r : EReal)) :
    ∃ r : ℝ, Host.scatterAdd (F := Ideal) d x idx upd i = (r : EReal) := by
  obtain ⟨r, hr⟩ := hx
  choose f hf using hupd
  refine ⟨r + ∑ j ∈ Finset.univ.filter (fun j => d.resultIdx? j idx = some i), f j, ?_⟩
  show Ideal.hostScatterAdd d x idx upd i = _
  unfold Ideal.hostScatterAdd
  rw [hr, EReal.coe_add, ← coe_finset_sum]
  congr 1
  exact Finset.sum_congr rfl fun j _ => hf j

end Real

end Idealize.ShloMosaic.RowsIdx

end
-- ==== Proof.RefIdx.lean ====
/-
  Coordinates of literal index maps.

  An index of a rank-`r` array is a function of the axis; `ix1 … ix4` build one from its coordinates. The lemmas here read
  a coordinate's value off such an index and prove that an index IS `ixr` of given coordinates from the coordinates'
  values, so that an equation between index maps becomes linear arithmetic with division by literals.
-/
import Idealize.ShloMosaic.Lib.ValueIdx

namespace Cert.RefPool

open Idealize.ShloMosaic Idealize.ShloMosaic.ValueIdx

/-- Row of pedestrian `i` of sequence `s`. -/
def row (s : Fin 256) (i : Fin 64) : Fin 16384 := ⟨s.val * 64 + i.val, by have := s.isLt; have := i.isLt; omega⟩

theorem row_val (s : Fin 256) (i : Fin 64) : (row s i).val = s.val * 64 + i.val := rfl

section IxVal
variable {n0 n1 n2 n3 : Nat} (a : Fin n0) (b : Fin n1) (c : Fin n2) (d : Fin n3)
theorem ix1_n0 : (ix1 a 0).val = a.val := rfl
theorem ix2_n0 : (ix2 a b 0).val = a.val := rfl
theorem ix2_n1 : (ix2 a b 1).val = b.val := rfl
theorem ix3_n0 : (ix3 a b c 0).val = a.val := rfl
theorem ix3_n1 : (ix3 a b c 1).val = b.val := rfl
theorem ix3_n2 : (ix3 a b c 2).val = c.val := rfl
theorem ix4_n0 : (ix4 a b c d 0).val = a.val := rfl
theorem ix4_n1 : (ix4 a b c d 1).val = b.val := rfl
theorem ix4_n2 : (ix4 a b c d 2).val = c.val := rfl
theorem ix4_n3 : (ix4 a b c d 3).val = d.val := rfl
end IxVal

/-- An index is `ix1` / `ix2` / `ix3` / `ix4` of given coordinates when its coordinates have their values. -/
theorem ext1 {n0 : Nat} {j : (⟨1, ![n0]⟩ : Shape).Idx} {a : Fin n0}
    (h0 : (j ⟨0, (by decide : 0 < 1)⟩).val = a.val) : j = ix1 a := by
  funext d; match d with | ⟨0, _⟩ => exact Fin.ext h0
theorem ext2 {n0 n1 : Nat} {j : (⟨2, ![n0, n1]⟩ : Shape).Idx} {a : Fin n0} {b : Fin n1}
    (h0 : (j ⟨0, (by decide : 0 < 2)⟩).val = a.val) (h1 : (j ⟨1, (by decide : 1 < 2)⟩).val = b.val) : j = ix2 a b := by
  funext d; match d with | ⟨0, _⟩ => exact Fin.ext h0 | ⟨1, _⟩ => exact Fin.ext h1
theorem ext3 {n0 n1 n2 : Nat} {j : (⟨3, ![n0, n1, n2]⟩ : Shape).Idx} {a : Fin n0} {b : Fin n1} {c : Fin n2}
    (h0 : (j ⟨0, (by decide : 0 < 3)⟩).val = a.val) (h1 : (j ⟨1, (by decide : 1 < 3)⟩).val = b.val) (h2 : (j ⟨2, (by decide : 2 < 3)⟩).val = c.val) :
    j = ix3 a b c := by
  funext d; match d with | ⟨0, _⟩ => exact Fin.ext h0 | ⟨1, _⟩ => exact Fin.ext h1 | ⟨2, _⟩ => exact Fin.ext h2
theorem ext4 {n0 n1 n2 n3 : Nat} {j : (⟨4, ![n0, n1, n2, n3]⟩ : Shape).Idx} {a : Fin n0} {b : Fin n1} {c : Fin n2} {d : Fin n3}
    (h0 : (j ⟨0, (by decide : 0 < 4)⟩).val = a.val) (h1 : (j ⟨1, (by decide : 1 < 4)⟩).val = b.val) (h2 : (j ⟨2, (by decide : 2 < 4)⟩).val = c.val)
    (h3 : (j ⟨3, (by decide : 3 < 4)⟩).val = d.val) : j = ix4 a b c d := by
  funext e; match e with | ⟨0, _⟩ => exact Fin.ext h0 | ⟨1, _⟩ => exact Fin.ext h1 | ⟨2, _⟩ => exact Fin.ext h2 | ⟨3, _⟩ => exact Fin.ext h3

/-- Reduce a coordinate of a literal index map to arithmetic on the coordinates' values, then decide it. -/
macro "ixv" : tactic => `(tactic| (simp only [ix1_n0, ix2_n0, ix2_n1, ix3_n0, ix3_n1, ix3_n2, ix4_n0, ix4_n1, ix4_n2, ix4_n3,
  row_val, Fin.val_zero, Fin.val_one]; try omega))

end Cert.RefPool
-- ==== Proof.RefIds.lean ====
/-
  The segment ids of the reference, read at a pair.

  The reference reshapes the positions to [256, 64, 2], slices the two coordinates, forms the square's bounds around each
  centre pedestrian, broadcasts centre and other pedestrian over a [256, 64, 64] array of pairs and computes, per pair
  (sequence `s`, centre `i`, other `k`), the grid cell, the out-of-square bit and the segment id. Read at the index
  `(s, i, k)`, each of these is the scalar function of `PoolSpec` applied to the four coordinates of rows `64 s + i` and
  `64 s + k` of the position array.
-/
import proofs.«128457_j3169685865097_1_alg».proof.Proof.Gen.ReferenceIdeal.Read
import proofs.«128457_j3169685865097_1_alg».proof.Proof.PoolSpec
import proofs.«128457_j3169685865097_1_alg».proof.Proof.RefIdx

noncomputable section
namespace Cert.RefPool
open Cert.ReferenceIdeal Cert.ReferenceIdeal.Read Idealize.ShloMosaic Idealize.ShloMosaic.ValueIdx

variable (x2 : (⟨S16384x2, .f32⟩ : BufTy).Contents (Elt Ideal))

/-! ## The position array read through the reshape, the two column slices and the reshape back -/

theorem v2_at (s : Fin 256) (i : Fin 64) (c : Fin 2) :
    val_main_v2 (F := Ideal) x2 (ix3 s i c) = x2 (ix2 (row s i) c) := by
  rw [val_main_v2_apply]
  exact congrArg x2 (by refine ext2 ?_ ?_ <;> ixv)

theorem v4_at (s : Fin 256) (i : Fin 64) : val_main_v4 (F := Ideal) x2 (ix2 s i) = x2 (ix2 (row s i) 0) := by
  rw [val_main_v4_apply, val_main_v3_apply,
    show idx_main_v3 (idx_main_v4 (ix2 s i)) = ix3 s i 0 by refine ext3 ?_ ?_ ?_ <;> ixv]
  exact v2_at x2 s i 0

theorem v12_at (s : Fin 256) (i : Fin 64) : val_main_v12 (F := Ideal) x2 (ix2 s i) = x2 (ix2 (row s i) 0) := by
  rw [val_main_v12_apply, val_main_v11_apply,
    show idx_main_v11 (idx_main_v12 (ix2 s i)) = ix3 s i 0 by refine ext3 ?_ ?_ ?_ <;> ixv]
  exact v2_at x2 s i 0

theorem v20_at (s : Fin 256) (i : Fin 64) : val_main_v20 (F := Ideal) x2 (ix2 s i) = x2 (ix2 (row s i) 0) := by
  rw [val_main_v20_apply, val_main_v19_apply,
    show idx_main_v19 (idx_main_v20 (ix2 s i)) = ix3 s i 0 by refine ext3 ?_ ?_ ?_ <;> ixv]
  exact v2_at x2 s i 0

theorem v8_at (s : Fin 256) (i : Fin 64) : val_main_v8 (F := Ideal) x2 (ix2 s i) = x2 (ix2 (row s i) 1) := by
  rw [val_main_v8_apply, val_main_v7_apply,
    show idx_main_v7 (idx_main_v8 (ix2 s i)) = ix3 s i 1 by refine ext3 ?_ ?_ ?_ <;> ixv]
  exact v2_at x2 s i 1

theorem v16_at (s : Fin 256) (i : Fin 64) : val_main_v16 (F := Ideal) x2 (ix2 s i) = x2 (ix2 (row s i) 1) := by
  rw [val_main_v16_apply, val_main_v15_apply,
    show idx_main_v15 (idx_main_v16 (ix2 s i)) = ix3 s i 1 by refine ext3 ?_ ?_ ?_ <;> ixv]
  exact v2_at x2 s i 1

theorem v23_at (s : Fin 256) (i : Fin 64) : val_main_v23 (F := Ideal) x2 (ix2 s i) = x2 (ix2 (row s i) 1) := by
  rw [val_main_v23_apply, val_main_v22_apply,
    show idx_main_v22 (idx_main_v23 (ix2 s i)) = ix3 s i 1 by refine ext3 ?_ ?_ ?_ <;> ixv]
  exact v2_at x2 s i 1

/-! ## The square's four bounds around the centre, and the other pedestrian's coordinates -/

theorem v6_at (s : Fin 256) (i : Fin 64) :
    val_main_v6 (F := Ideal) x2 (ix2 s i) = x2 (ix2 (row s i) 0) - PoolSpec.half := by
  rw [val_main_v6_apply, v4_at, val_main_v5_apply, val_main_cst_apply]; rfl

theorem v10_at (s : Fin 256) (i : Fin 64) :
    val_main_v10 (F := Ideal) x2 (ix2 s i) = x2 (ix2 (row s i) 1) + PoolSpec.half := by
  rw [val_main_v10_apply, v8_at, val_main_v9_apply, val_main_cst_0_apply]; rfl

theorem v14_at (s : Fin 256) (i : Fin 64) :
    val_main_v14 (F := Ideal) x2 (ix2 s i) = x2 (ix2 (row s i) 0) + PoolSpec.half := by
  rw [val_main_v14_apply, v12_at, val_main_v13_apply, val_main_cst_1_apply]; rfl

theorem v18_at (s : Fin 256) (i : Fin 64) :
    val_main_v18 (F := Ideal) x2 (ix2 s i) = x2 (ix2 (row s i) 1) - PoolSpec.half := by
  rw [val_main_v18_apply, v16_at, val_main_v17_apply, val_main_cst_2_apply]; rfl

theorem v21_at (s : Fin 256) (z : Fin 1) (k : Fin 64) :
    val_main_v21 (F := Ideal) x2 (ix3 s z k) = x2 (ix2 (row s k) 0) := by
  rw [val_main_v21_apply, show idx_main_v21 (ix3 s z k) = ix2 s k by refine ext2 ?_ ?_ <;> ixv]
  exact v20_at x2 s k

theorem v24_at (s : Fin 256) (z : Fin 1) (k : Fin 64) :
    val_main_v24 (F := Ideal) x2 (ix3 s z k) = x2 (ix2 (row s k) 1) := by
  rw [val_main_v24_apply, show idx_main_v24 (ix3 s z k) = ix2 s k by refine ext2 ?_ ?_ <;> ixv]
  exact v23_at x2 s k

/-! ## The broadcasts over the pair axes -/

theorem v26_at (s : Fin 256) (i k : Fin 64) :
    val_main_v26 (F := Ideal) x2 (ix3 s i k) = x2 (ix2 (row s k) 0) := by
  rw [val_main_v26_apply, show idx_main_v26 (ix3 s i k) = ix3 s 0 k by refine ext3 ?_ ?_ ?_ <;> ixv]
  exact v21_at x2 s 0 k

theorem v47_at (s : Fin 256) (i k : Fin 64) :
    val_main_v47 (F := Ideal) x2 (ix3 s i k) = x2 (ix2 (row s k) 0) := by
  rw [val_main_v47_apply, show idx_main_v47 (ix3 s i k) = ix3 s 0 k by refine ext3 ?_ ?_ ?_ <;> ixv]
  exact v21_at x2 s 0 k

theorem v51_at (s : Fin 256) (i k : Fin 64) :
    val_main_v51 (F := Ideal) x2 (ix3 s i k) = x2 (ix2 (row s k) 0) := by
  rw [val_main_v51_apply, show idx_main_v51 (ix3 s i k) = ix3 s 0 k by refine ext3 ?_ ?_ ?_ <;> ixv]
  exact v21_at x2 s 0 k

theorem v36_at (s : Fin 256) (i k : Fin 64) :
    val_main_v36 (F := Ideal) x2 (ix3 s i k) = x2 (ix2 (row s k) 1) := by
  rw [val_main_v36_apply, show idx_main_v36 (ix3 s i k) = ix3 s 0 k by refine ext3 ?_ ?_ ?_ <;> ixv]
  exact v24_at x2 s 0 k

theorem v56_at (s : Fin 256) (i k : Fin 64) :
    val_main_v56 (F := Ideal) x2 (ix3 s i k) = x2 (ix2 (row s k) 1) := by
  rw [val_main_v56_apply, show idx_main_v56 (ix3 s i k) = ix3 s 0 k by refine ext3 ?_ ?_ ?_ <;> ixv]
  exact v24_at x2 s 0 k

theorem v61_at (s : Fin 256) (i k : Fin 64) :
    val_main_v61 (F := Ideal) x2 (ix3 s i k) = x2 (ix2 (row s k) 1) := by
  rw [val_main_v61_apply, show idx_main_v61 (ix3 s i k) = ix3 s 0 k by refine ext3 ?_ ?_ ?_ <;> ixv]
  exact v24_at x2 s 0 k

theorem v27_at (s : Fin 256) (i k : Fin 64) :
    val_main_v27 (F := Ideal) x2 (ix3 s i k) = x2 (ix2 (row s i) 0) - PoolSpec.half := by
  rw [val_main_v27_apply, val_main_v25_apply,
    show idx_main_v25 (idx_main_v27 (ix3 s i k)) = ix2 s i by refine ext2 ?_ ?_ <;> ixv]
  exact v6_at x2 s i

theorem v52_at (s : Fin 256) (i k : Fin 64) :
    val_main_v52 (F := Ideal) x2 (ix3 s i k) = x2 (ix2 (row s i) 0) - PoolSpec.half := by
  rw [val_main_v52_apply, val_main_v50_apply,
    show idx_main_v50 (idx_main_v52 (ix3 s i k)) = ix2 s i by refine ext2 ?_ ?_ <;> ixv]
  exact v6_at x2 s i

theorem v35_at (s : Fin 256) (i k : Fin 64) :
    val_main_v35 (F := Ideal) x2 (ix3 s i k) = x2 (ix2 (row s i) 1) + PoolSpec.half := by
  rw [val_main_v35_apply, val_main_v34_apply,
    show idx_main_v34 (idx_main_v35 (ix3 s i k)) = ix2 s i by refine ext2 ?_ ?_ <;> ixv]
  exact v10_at x2 s i

theorem v57_at (s : Fin 256) (i k : Fin 64) :
    val_main_v57 (F := Ideal) x2 (ix3 s i k) = x2 (ix2 (row s i) 1) + PoolSpec.half := by
  rw [val_main_v57_apply, val_main_v55_apply,
    show idx_main_v55 (idx_main_v57 (ix3 s i k)) = ix2 s i by refine ext2 ?_ ?_ <;> ixv]
  exact v10_at x2 s i

theorem v48_at (s : Fin 256) (i k : Fin 64) :
    val_main_v48 (F := Ideal) x2 (ix3 s i k) = x2 (ix2 (row s i) 0) + PoolSpec.half := by
  rw [val_main_v48_apply, val_main_v46_apply,
    show idx_main_v46 (idx_main_v48 (ix3 s i k)) = ix2 s i by refine ext2 ?_ ?_ <;> ixv]
  exact v14_at x2 s i

theorem v62_at (s : Fin 256) (i k : Fin 64) :
    val_main_v62 (F := Ideal) x2 (ix3 s i k) = x2 (ix2 (row s i) 1) - PoolSpec.half := by
  rw [val_main_v62_apply, val_main_v60_apply,
    show idx_main_v60 (idx_main_v62 (ix3 s i k)) = ix2 s i by refine ext2 ?_ ?_ <;> ixv]
  exact v18_at x2 s i

/-! ## The grid cell, the out-of-square bit, and the segment id of a pair -/

theorem v45_at (s : Fin 256) (i k : Fin 64) :
    val_main_v45 (F := Ideal) x2 (ix3 s i k)
      = Ideal.liftRound Int.floor (Ideal.div (x2 (ix2 (row s k) 0) - (x2 (ix2 (row s i) 0) - PoolSpec.half)) PoolSpec.side * PoolSpec.width)
        + Ideal.liftRound Int.floor (Ideal.div ((x2 (ix2 (row s i) 1) + PoolSpec.half) - x2 (ix2 (row s k) 1)) PoolSpec.side * PoolSpec.width) * PoolSpec.width := by
  rw [val_main_v45_apply, val_main_v33_apply, val_main_v32_apply, val_main_v30_apply, val_main_v28_apply, v26_at, v27_at,
    val_main_v29_apply, val_main_cst_3_apply, val_main_v31_apply, val_main_cst_4_apply, val_main_v44_apply,
    val_main_v42_apply, val_main_v41_apply, val_main_v39_apply, val_main_v37_apply, v35_at, v36_at, val_main_v38_apply,
    val_main_cst_5_apply, val_main_v40_apply, val_main_cst_6_apply, val_main_v43_apply, val_main_cst_7_apply]
  rfl

theorem v76_at (s : Fin 256) (i k : Fin 64) :
    val_main_v76 (F := Ideal) x2 (ix3 s i k)
      = PoolSpec.cell (x2 (ix2 (row s i) 0)) (x2 (ix2 (row s i) 1)) (x2 (ix2 (row s k) 0)) (x2 (ix2 (row s k) 1)) := by
  rw [val_main_v76_apply, val_main_call0_v4_apply, val_main_call0_v3_apply, val_main_c_9_apply, val_main_call0_v2_apply,
    val_main_call0_v1_apply, val_main_call0_v0_apply, val_main_c_8_apply, val_main_v75_apply, v45_at]
  rfl

theorem v64_at (s : Fin 256) (i k : Fin 64) :
    val_main_v64 (F := Ideal) x2 (ix3 s i k)
      = PoolSpec.outside (x2 (ix2 (row s i) 0)) (x2 (ix2 (row s i) 1)) (x2 (ix2 (row s k) 0)) (x2 (ix2 (row s k) 1)) := by
  rw [val_main_v64_apply, val_main_v59_apply, val_main_v54_apply, val_main_v49_apply, v47_at, v48_at, val_main_v53_apply,
    v51_at, v52_at, val_main_v58_apply, v56_at, v57_at, val_main_v63_apply, v61_at, v62_at]
  rfl

theorem v73_at (s : Fin 256) (i k : Fin 64) :
    val_main_v73 (F := Ideal) (ix3 s i k)
      = ~~~(IntOp.cmpi .eq (IntOp.addi (BitVec.ofNat 32 i.val) 0#32) (BitVec.ofNat 32 k.val)) := by
  rw [val_main_v73_apply, val_main_v72_apply, val_main_v70_apply, val_main_v69_apply, val_main_v68_apply,
    val_main_v65_apply, val_main_v67_apply, val_main_c_apply, val_main_v66_apply]

theorem v88_at (s : Fin 256) (i k : Fin 64) :
    val_main_v88 (F := Ideal) (ix3 s i k)
      = IntOp.muli (IntOp.addi (IntOp.muli (BitVec.ofNat 32 s.val) 64#32) (BitVec.ofNat 32 i.val)) 64#32 := by
  rw [val_main_v88_apply, val_main_v87_apply, val_main_v85_apply, val_main_v83_apply, val_main_v80_apply,
    val_main_v78_apply, val_main_v77_apply, val_main_v79_apply, val_main_c_10_apply, val_main_v84_apply,
    val_main_v82_apply, val_main_v81_apply, val_main_v86_apply, val_main_c_11_apply]

/-- The segment id of the pair (centre `i`, other `k`) of sequence `s`: `(64 s + i) · 64 + cell` when the other
    pedestrian is strictly inside the square and is not the centre, and the dummy segment `1048576` otherwise. -/
theorem v90_at (s : Fin 256) (i k : Fin 64) :
    val_main_v90 (F := Ideal) x2 (ix3 s i k)
      = Scalar.select
          (IntOp.andi
            (~~~(PoolSpec.outside (x2 (ix2 (row s i) 0)) (x2 (ix2 (row s i) 1)) (x2 (ix2 (row s k) 0)) (x2 (ix2 (row s k) 1))))
            (~~~(IntOp.cmpi .eq (IntOp.addi (BitVec.ofNat 32 i.val) 0#32) (BitVec.ofNat 32 k.val))))
          (IntOp.addi (IntOp.muli (IntOp.addi (IntOp.muli (BitVec.ofNat 32 s.val) 64#32) (BitVec.ofNat 32 i.val)) 64#32)
            (PoolSpec.cell (x2 (ix2 (row s i) 0)) (x2 (ix2 (row s i) 1)) (x2 (ix2 (row s k) 0)) (x2 (ix2 (row s k) 1))))
          1048576#32 := by
  rw [val_main_v90_apply, val_main_v74_apply, val_main_v71_apply, v64_at, v73_at, val_main_v89_apply, v88_at, v76_at,
    val_main_call1_v1_apply, val_main_call1_v0_apply, val_main_c_12_apply]

end Cert.RefPool
-- ==== Proof.RefBits.lean ====
/-
  Thirty-two-bit arithmetic of the segment ids.

  A word clipped (as a signed integer) to 0 … 63 is below 64. For a sequence `s < 256`, a centre `i < 64` and such a
  cell word `c`, the word `(s · 64 + i) · 64 + c` does not wrap: its signed value is `(64 s + i) · 64 + c`, which is
  `n · 64 + g` (`g < 64`) exactly when `64 s + i = n` and `c` is the word `g`. The dummy segment `1048576` is none of
  these values. The validity bit of a pair is one exactly when the out-of-square bit is zero and the other pedestrian
  is not the centre.
-/
import proofs.«128457_j3169685865097_1_alg».proof.Proof.PoolSpec

namespace Cert.RefPool

open Idealize.ShloMosaic

/-- A word whose signed value lies in 0 … 63 has that value as its unsigned value. -/
theorem toNat_lt_of_toInt (m : BitVec 32) (h0 : 0 ≤ m.toInt) (h1 : m.toInt ≤ 63) : m.toNat < 64 := by
  have hc := BitVec.toInt_eq_toNat_cond m
  have hl := m.isLt
  by_cases h : 2 * m.toNat < 2 ^ 32
  · rw [if_pos h] at hc; omega
  · rw [if_neg h] at hc; omega

/-- Clipping to 0 … 63 as signed integers leaves a word below 64. -/
theorem clip_lt (z : BitVec 32) : (IntOp.minsi 63#32 (IntOp.maxsi 0#32 z)).toNat < 64 := by
  have hm : 0 ≤ (IntOp.maxsi 0#32 z).toInt := by
    unfold IntOp.maxsi
    by_cases h : z.slt 0#32
    · rw [if_pos h]; decide
    · rw [if_neg h]; rw [BitVec.slt_iff_toInt_lt] at h
      have h0 : (0#32 : BitVec 32).toInt = 0 := by decide
      omega
  generalize IntOp.maxsi 0#32 z = m at hm ⊢
  unfold IntOp.minsi
  by_cases h : (63#32 : BitVec 32).slt m
  · rw [if_pos h]; decide
  · rw [if_neg h]; rw [BitVec.slt_iff_toInt_lt] at h
    have h63 : (63#32 : BitVec 32).toInt = 63 := by decide
    exact toNat_lt_of_toInt m hm (by omega)

/-- The grid cell of `PoolSpec` is below 64. -/
theorem cell_lt (xi yi xk yk : EReal) : (PoolSpec.cell xi yi xk yk).toNat < 64 := clip_lt _

/-- The segment word of sequence `s`, centre `i` and cell `c`. -/
def segWord (s : Fin 256) (i : Fin 64) (c : BitVec 32) : BitVec 32 :=
  IntOp.addi (IntOp.muli (IntOp.addi (IntOp.muli (BitVec.ofNat 32 s.val) 64#32) (BitVec.ofNat 32 i.val)) 64#32) c

/-- It does not wrap. -/
theorem segWord_toNat (s : Fin 256) (i : Fin 64) (c : BitVec 32) (hc : c.toNat < 64) :
    (segWord s i c).toNat = (s.val * 64 + i.val) * 64 + c.toNat := by
  unfold segWord
  simp only [IntOp.addi, IntOp.muli, BitVec.toNat_add, BitVec.toNat_mul, BitVec.toNat_ofNat]
  have hs := s.isLt
  have hi := i.isLt
  omega

/-- Its signed value is `n · 64 + g` exactly when the pair's centre is row `n` and the cell is `g`. -/
theorem segWord_toInt_eq_iff (s : Fin 256) (i : Fin 64) (c : BitVec 32) (hc : c.toNat < 64) (n : Fin 16384) (g : Fin 64) :
    (segWord s i c).toInt = ((n.val * 64 + g.val : Nat) : Int)
      ↔ s.val * 64 + i.val = n.val ∧ c = BitVec.ofNat 32 g.val := by
  have hs := s.isLt
  have hi := i.isLt
  have hg := g.isLt
  have hw := segWord_toNat s i c hc
  rw [BitVec.toInt_eq_toNat_of_lt (by rw [hw]; omega), hw]
  constructor
  · intro h
    refine ⟨by omega, BitVec.eq_of_toNat_eq ?_⟩
    rw [BitVec.toNat_ofNat]; omega
  · rintro ⟨h1, h2⟩
    rw [h2, BitVec.toNat_ofNat]; omega

/-- The dummy segment is not the segment of any row and cell. -/
theorem dummy_ne (n : Fin 16384) (g : Fin 64) : (1048576#32 : BitVec 32).toInt ≠ ((n.val * 64 + g.val : Nat) : Int) := by
  have hd : (1048576#32 : BitVec 32).toInt = 1048576 := by decide
  have hn := n.isLt
  have hg := g.isLt
  rw [hd]; omega

/-- The validity bit: inside the square and not the centre itself. -/
theorem valid_iff (o : BitVec 1) (i k : Fin 64) :
    IntOp.andi (~~~o) (~~~(IntOp.cmpi .eq (IntOp.addi (BitVec.ofNat 32 i.val) 0#32) (BitVec.ofNat 32 k.val))) = 1#1
      ↔ o = 0#1 ∧ ¬ k.val = i.val := by
  have hb : (IntOp.addi (BitVec.ofNat 32 i.val) 0#32 == BitVec.ofNat 32 k.val) = true ↔ k.val = i.val := by
    rw [beq_iff_eq]; unfold IntOp.addi; rw [BitVec.add_zero]
    have hi := i.isLt
    have hk := k.isLt
    constructor
    · intro h; have h' := congrArg BitVec.toNat h; simp only [BitVec.toNat_ofNat] at h'; omega
    · intro h; rw [h]
  show IntOp.andi (~~~o) (~~~(BitVec.ofBool (IntOp.addi (BitVec.ofNat 32 i.val) 0#32 == BitVec.ofNat 32 k.val))) = 1#1 ↔ _
  generalize (IntOp.addi (BitVec.ofNat 32 i.val) 0#32 == BitVec.ofNat 32 k.val) = b at hb ⊢
  rw [← hb]
  unfold IntOp.andi
  rcases BitVec.eq_zero_or_eq_one o with rfl | rfl <;> cases b <;> decide

/-- Where a pair's update lands: the selected segment id has the signed value `n · 64 + g` exactly when the pair is
    valid, its centre is row `n` and its cell is `g`. -/
theorem lands_iff (o : BitVec 1) (s : Fin 256) (i k : Fin 64) (c : BitVec 32) (hc : c.toNat < 64) (n : Fin 16384) (g : Fin 64) :
    (Scalar.select
        (IntOp.andi (~~~o) (~~~(IntOp.cmpi .eq (IntOp.addi (BitVec.ofNat 32 i.val) 0#32) (BitVec.ofNat 32 k.val))))
        (IntOp.addi (IntOp.muli (IntOp.addi (IntOp.muli (BitVec.ofNat 32 s.val) 64#32) (BitVec.ofNat 32 i.val)) 64#32) c)
        1048576#32).toInt = ((n.val * 64 + g.val : Nat) : Int)
      ↔ s.val * 64 + i.val = n.val ∧ (o = 0#1 ∧ ¬ k.val = i.val ∧ c = BitVec.ofNat 32 g.val) := by
  unfold Scalar.select
  by_cases hv : IntOp.andi (~~~o) (~~~(IntOp.cmpi .eq (IntOp.addi (BitVec.ofNat 32 i.val) 0#32) (BitVec.ofNat 32 k.val))) = 1#1
  · rw [if_pos (show _ = (1 : BitVec 1) from hv)]
    rw [valid_iff] at hv
    refine (segWord_toInt_eq_iff s i c hc n g).trans ?_
    exact ⟨fun h => ⟨h.1, hv.1, hv.2, h.2⟩, fun h => ⟨h.1, h.2.2.2⟩⟩
  · rw [if_neg (show ¬ _ = (1 : BitVec 1) from hv)]
    rw [valid_iff] at hv
    exact ⟨fun h => absurd h (dummy_ne n g), fun h => absurd ⟨h.2.1, h.2.2.1⟩ hv⟩

end Cert.RefPool
-- ==== Proof.RefScatter.lean ====
/-
  The reference's scatter-add is the pooling.

  The reference flattens the [256, 64, 64] array of pairs to 1048576 update rows `e = (64 s + i) · 64 + k`; row `e` carries
  the hidden state of pedestrian `k` of sequence `s` and is added into segment `(64 s + i) · 64 + cell` when the pair is
  valid, into the dummy segment otherwise. Read at segment `n · 64 + g` and channel `d`, the scatter-add of these rows into
  zeros is therefore the sum, over the pedestrians `k` of `n`'s sequence counted in cell `g` of `n`, of their hidden
  states: only the 64 rows `n · 64 + k` can land there, and row `n · 64 + k` lands there exactly when `k` is counted.
-/
import proofs.«128457_j3169685865097_1_alg».proof.Proof.Gen.ReferenceIdeal.Read
import proofs.«128457_j3169685865097_1_alg».proof.Proof.PoolSpec
import proofs.«128457_j3169685865097_1_alg».proof.Proof.LibGatherScatterRows
import proofs.«128457_j3169685865097_1_alg».proof.Proof.RefIdx
import proofs.«128457_j3169685865097_1_alg».proof.Proof.RefIds
import proofs.«128457_j3169685865097_1_alg».proof.Proof.RefBits

noncomputable section
namespace Cert.RefPool
open Cert.ReferenceIdeal Cert.ReferenceIdeal.Read Idealize.ShloMosaic Idealize.ShloMosaic.ValueIdx

variable (x0 : (⟨S1x16384x64, .f32⟩ : BufTy).Contents (Elt Ideal)) (x2 : (⟨S16384x2, .f32⟩ : BufTy).Contents (Elt Ideal))

/-! ## An update row is a pair: sequence, centre, other -/

/-- The sequence, the centre and the other pedestrian of update row `e = (64 s + i) · 64 + k`. -/
def seqOf (e : Fin 1048576) : Fin 256 := ⟨e.val / 4096, by have := e.isLt; omega⟩
def ctrOf (e : Fin 1048576) : Fin 64 := ⟨e.val / 64 % 64, by omega⟩
def othOf (e : Fin 1048576) : Fin 64 := ⟨e.val % 64, by omega⟩

theorem seqOf_val (e : Fin 1048576) : (seqOf e).val = e.val / 4096 := rfl
theorem ctrOf_val (e : Fin 1048576) : (ctrOf e).val = e.val / 64 % 64 := rfl
theorem othOf_val (e : Fin 1048576) : (othOf e).val = e.val % 64 := rfl

/-- The update row of centre `n` and other pedestrian `k` of `n`'s sequence. -/
def emb (n : Fin 16384) (k : Fin 64) : Fin 1048576 := ⟨n.val * 64 + k.val, by have := n.isLt; have := k.isLt; omega⟩

theorem emb_val (n : Fin 16384) (k : Fin 64) : (emb n k).val = n.val * 64 + k.val := rfl

theorem emb_injective (n : Fin 16384) : Function.Injective (emb n) := fun a b h => by
  have h' := congrArg Fin.val h
  rw [emb_val, emb_val] at h'
  exact Fin.ext (by omega)

/-- The segment id of update row `e` is the one of its pair. -/
theorem v96_at (e : Fin 1048576) (z : Fin 1) :
    val_main_v96 (F := Ideal) x2 (ix2 e z) = val_main_v90 (F := Ideal) x2 (ix3 (seqOf e) (ctrOf e) (othOf e)) := by
  rw [val_main_v96_apply, val_main_v94_apply]
  refine congrArg (val_main_v90 (F := Ideal) x2) (ext3 ?_ ?_ ?_) <;>
    simp only [ix2_n0, ix2_n1, seqOf_val, ctrOf_val, othOf_val]

/-- The update of row `e` is the hidden state of the pair's other pedestrian. -/
theorem v93_at (e : Fin 1048576) (d : Fin 64) :
    val_main_v93 (F := Ideal) x0 (ix2 e d) = x0 (ix3 0 (row (seqOf e) (othOf e)) d) := by
  rw [val_main_v93_apply, val_main_v92_apply, val_main_v91_apply, val_main_v1_apply, val_main_v0_apply]
  have he := e.isLt
  have hd := d.isLt
  refine congrArg x0 (ext3 ?_ ?_ ?_) <;>
    simp only [ix2_n0, ix2_n1, row_val, seqOf_val, othOf_val, Fin.val_zero] <;> omega

/-- Update row `e` lands in segment `n · 64 + g` exactly when it is a row of centre `n` and its other pedestrian is
    counted in cell `g` of `n`. -/
theorem lands (e : Fin 1048576) (z : Fin 1) (n : Fin 16384) (g : Fin 64) :
    (val_main_v96 (F := Ideal) x2 (ix2 e z)).toInt = ((n.val * 64 + g.val : Nat) : Int)
      ↔ e.val / 64 = n.val ∧ PoolSpec.Picks x2 n (othOf e) g := by
  rw [v96_at, v90_at, lands_iff _ _ _ _ _ (cell_lt _ _ _ _)]
  have he := e.isLt
  have ha : (seqOf e).val * 64 + (ctrOf e).val = n.val ↔ e.val / 64 = n.val := by
    rw [seqOf_val, ctrOf_val]; omega
  rw [ha]
  refine and_congr_right fun h1 => ?_
  have hn : row (seqOf e) (ctrOf e) = n := Fin.ext (by rw [row_val, seqOf_val, ctrOf_val]; omega)
  have hk : row (seqOf e) (othOf e) = PoolSpec.mate n (othOf e) := Fin.ext (by
    show (seqOf e).val * 64 + (othOf e).val = n.val / 64 * 64 + (othOf e).val
    rw [seqOf_val]; omega)
  have hc : (ctrOf e).val = n.val % 64 := by rw [ctrOf_val]; omega
  rw [hn, hk, hc]
  exact Iff.rfl

/-! ## The scatter-add, read at a row's cell -/

/-- Segment `n · 64 + g` of the scatter-add holds the pooled hidden states of cell `g` of centre `n`. -/
theorem v97_at (n : Fin 16384) (g d : Fin 64) :
    val_main_v97 (F := Ideal) x0 x2
        (ix2 (⟨n.val * 64 + g.val, by have := n.isLt; have := g.isLt; omega⟩ : Fin 1048577) d)
      = PoolSpec.pooled x2 x0 n g d := by
  unfold val_main_v97
  refine (RowsIdx.scatterAdd_rows_apply _ rfl rfl rfl rfl _ _ _ _ _).trans ?_
  rw [val_main_v95_apply, val_main_cst_13_apply]
  refine (congrArg (· + _) Ideal.ofBits_zero_f32).trans ?_
  rw [zero_add]
  unfold PoolSpec.pooled
  symm
  refine Fintype.sum_of_injective (emb n) (emb_injective n) _ _ ?_ ?_
  · intro e he
    rw [if_neg]
    intro hc
    rw [lands] at hc
    exact he ⟨othOf e, Fin.ext (by rw [emb_val, othOf_val]; omega)⟩
  · intro k
    have hk : othOf (emb n k) = k := Fin.ext (by rw [othOf_val, emb_val]; omega)
    rw [v93_at]
    refine if_congr ?_ ?_ rfl
    · rw [lands, hk]
      exact ⟨fun h => ⟨by rw [emb_val]; omega, h⟩, fun h => h.2⟩
    · rw [hk]
      exact congrArg x0 (congrArg (fun r => ix3 (0 : Fin 1) r d) (Fin.ext (by
        show n.val / 64 * 64 + k.val = (seqOf (emb n k)).val * 64 + k.val
        rw [seqOf_val, emb_val]; omega)))

end Cert.RefPool
-- ==== Proof.RefPool.lean ====
/-
  The reference is the specification.

  The reference's output before batch normalisation is a `dot_general` of the pooled array, reshaped to [16384, 4096], with
  the weights, plus the broadcast bias. Column `c = 64 g + d` of row `n` of the reshaped array is channel `d` of segment
  `n · 64 + g` of the scatter-add, which is `PoolSpec.pooled … n g d`; splitting the sum over the 4096 columns into the sum
  over cells `g` and channels `d` gives `PoolSpec.lin`.
-/
import proofs.«128457_j3169685865097_1_alg».proof.Proof.Gen.ReferenceIdeal.Read
import proofs.«128457_j3169685865097_1_alg».proof.Proof.PoolSpec
import proofs.«128457_j3169685865097_1_alg».proof.Proof.LibGatherScatterRows
import proofs.«128457_j3169685865097_1_alg».proof.Proof.RefIdx
import proofs.«128457_j3169685865097_1_alg».proof.Proof.RefScatter

noncomputable section
namespace Cert.RefPool
open Cert.ReferenceIdeal Cert.ReferenceIdeal.Read Idealize.ShloMosaic Idealize.ShloMosaic.ValueIdx

/-- A weight row is a grid cell and a channel: `c = 64 g + d`. -/
def cellChan : Fin 64 × Fin 64 ≃ Fin 4096 where
  toFun p := PoolSpec.wrow p.1 p.2
  invFun c := (⟨c.val / 64, by have := c.isLt; omega⟩, ⟨c.val % 64, by omega⟩)
  left_inv p := by
    rcases p with ⟨g, d⟩
    have hg := g.isLt
    have hd := d.isLt
    refine Prod.ext (Fin.ext ?_) (Fin.ext ?_)
    · show (g.val * 64 + d.val) / 64 = g.val; omega
    · show (g.val * 64 + d.val) % 64 = d.val; omega
  right_inv c := Fin.ext (by show c.val / 64 * 64 + c.val % 64 = c.val; omega)

theorem wrow_val (g d : Fin 64) : (PoolSpec.wrow g d).val = g.val * 64 + d.val := rfl

/-- Row `n`, column `64 g + d` of the reshaped pooled array is segment `n · 64 + g`, channel `d` of the scatter-add. -/
theorem v99_at (x0 : (⟨S1x16384x64, .f32⟩ : BufTy).Contents (Elt Ideal)) (x2 : (⟨S16384x2, .f32⟩ : BufTy).Contents (Elt Ideal))
    (n : Fin 16384) (g d : Fin 64) :
    val_main_v99 (F := Ideal) x0 x2 (ix2 n (PoolSpec.wrow g d)) = PoolSpec.pooled x2 x0 n g d := by
  rw [val_main_v99_apply, val_main_v98_apply]
  have hn := n.isLt
  have hg := g.isLt
  have hd := d.isLt
  rw [show idx_main_v98 (idx_main_v99 (ix2 n (PoolSpec.wrow g d)))
      = ix2 (⟨n.val * 64 + g.val, by omega⟩ : Fin 1048577) d by
    refine ext2 ?_ ?_ <;> simp only [ix2_n0, ix2_n1, wrow_val] <;> omega]
  exact v97_at x0 x2 n g d

/-- The reference's linear layer over the pooled array is the specification. -/
theorem ref_lin (x0 : (⟨S1x16384x64, .f32⟩ : BufTy).Contents (Elt Ideal)) (x2 : (⟨S16384x2, .f32⟩ : BufTy).Contents (Elt Ideal))
    (x3 : (⟨S4096x64, .f32⟩ : BufTy).Contents (Elt Ideal)) (x4 : (⟨S64, .f32⟩ : BufTy).Contents (Elt Ideal)) :
    Cert.ReferenceIdeal.Read.val_main_v103 (F := Ideal) x0 x2 x3 x4 = Cert.PoolSpec.lin x2 x0 x3 x4 := by
  funext i
  obtain ⟨n, j, rfl⟩ : ∃ n j, i = ix2 n j := ⟨i 0, i 1, eq_ix2 i⟩
  rw [val_main_v103_apply, val_main_v100_apply, val_main_v102_apply, val_main_v101_apply]
  show (∑ c : Fin 4096, _) + _ = (∑ g : Fin 64, ∑ d : Fin 64, _) + _
  refine congrArg₂ (· + ·) ?_ ?_
  · rw [← Equiv.sum_comp cellChan, Fintype.sum_prod_type]
    refine Finset.sum_congr rfl fun g _ => Finset.sum_congr rfl fun d _ => ?_
    have hl : lidx_main_v100 (ix2 n j) (cellChan (g, d)) = ix2 n (PoolSpec.wrow g d) := by
      refine ext2 ?_ ?_ <;> rfl
    have hr : ridx_main_v100 (ix2 n j) (cellChan (g, d)) = ix2 (PoolSpec.wrow g d) j := by
      refine ext2 ?_ ?_ <;> rfl
    rw [hl, hr, v99_at]
  · exact congrArg x4 (ext1 rfl)

end Cert.RefPool
-- ==== Proof.lean ====
/-
  Social pooling, a linear layer, batch normalisation and a rectifier: a Pallas kernel against its jnp reference,
  over the extended reals.

  Both programs compute, for every pedestrian `n` (256 sequences of 64), the sums of the hidden states of the other
  pedestrians of its sequence that lie strictly inside a square of side 2 around it, one sum per cell of an 8 x 8
  grid laid over the square (64 cells x 64 channels = 4096 numbers per pedestrian), pass them through a linear layer
  [4096 -> 64] with a bias, normalise every channel over the 16384 rows, scale, shift and rectify.

  The kernel never forms the 4096 numbers: per block of 256 rows (four whole sequences) it builds the 256 x 256 mask
  of admissible pairs and runs over the 64 cells; cell `g` multiplies the mask of the pairs falling in `g` by the
  hidden states (a sum over the pedestrians of the block, of which only those of the row's own sequence survive the
  mask) and the result by rows `64 g … 64 g + 63` of the weights, and adds that to an accumulator.  The reference
  gives every admissible pair the segment id `(64 n + cell)`, every other pair a dummy id, adds the hidden states by
  segment, drops the dummy segment, reads the segments of one pedestrian as its 4096 numbers and multiplies by the
  weights once.  Index by index both are

      (∑ g, ∑ d, (∑ k, [k counted in cell g of n] · h (sequence of n, k, d)) · W (64 g + d, j)) + b j

  (Proof/PoolSpec.lean): the kernel's accumulated sum is this sum cell by cell, the reference's one sum over 4096
  columns is this sum with the column split into (cell, channel), and a sum of hidden states selected by a 0/1 mask or
  by a segment id is the same sum.  Only the commutative monoid of the extended reals under addition is used, and
  `0 · x = 0`, `1 · x = x`: the precondition is never opened.  The lines after the layer are the same in both programs
  (Proof/BatchNorm.lean).  The kernel's program has nothing the ideal reading rewrites, so `preserves` is trivial; the
  two kernel frames are the generated ones, the reference's frame is its generated run with the result dropped.
-/
import proofs.«128457_j3169685865097_1_alg».proof.Defs
import proofs.«128457_j3169685865097_1_alg».proof.Proof.Gen.Kernel
import proofs.«128457_j3169685865097_1_alg».proof.Proof.Gen.Kernel.Skeleton
import proofs.«128457_j3169685865097_1_alg».proof.Proof.Gen.Kernel.Loops
import proofs.«128457_j3169685865097_1_alg».proof.Proof.Gen.Kernel.Launch
import proofs.«128457_j3169685865097_1_alg».proof.Proof.Gen.Kernel.Points
import proofs.«128457_j3169685865097_1_alg».proof.Proof.Gen.Kernel.Frame
import proofs.«128457_j3169685865097_1_alg».proof.Proof.Gen.KernelIdeal
import proofs.«128457_j3169685865097_1_alg».proof.Proof.Gen.KernelIdeal.Skeleton
import proofs.«128457_j3169685865097_1_alg».proof.Proof.Gen.KernelIdeal.Loops
import proofs.«128457_j3169685865097_1_alg».proof.Proof.Gen.KernelIdeal.Launch
import proofs.«128457_j3169685865097_1_alg».proof.Proof.Gen.KernelIdeal.Points
import proofs.«128457_j3169685865097_1_alg».proof.Proof.Gen.KernelIdeal.Frame
import proofs.«128457_j3169685865097_1_alg».proof.Proof.Gen.ReferenceIdeal
import proofs.«128457_j3169685865097_1_alg».proof.Proof.Gen.ReferenceIdeal.Run
import proofs.«128457_j3169685865097_1_alg».proof.Proof.Gen.ReferenceIdeal.Read
import proofs.«128457_j3169685865097_1_alg».proof.Proof.Gen.Pre_finite_inputs
import proofs.«128457_j3169685865097_1_alg».proof.Proof.KernelRun
import proofs.«128457_j3169685865097_1_alg».proof.Proof.CellStep
import proofs.«128457_j3169685865097_1_alg».proof.Proof.RefTail
import proofs.«128457_j3169685865097_1_alg».proof.Proof.RefPool
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- One grid cell's step of the kernel's accumulator, at an index. -/
theorem step_law : Cert.BlockSum.StepLaw := fun x1 x0 t acc wb p q => Cert.CellStep.cell_step x1 x0 t acc wb p q

/-- From arguments that agree, both programs end with the normalised, rectified layer of the arguments. -/
theorem algebraic : Cert.algebraic_KernelIdeal_ReferenceIdeal := by
  intro m ρ m' ρ' _ hagree
  refine ⟨fun c => Cert.BatchNorm.bnRelu Cert.KernelIdeal.Facts₀.reducesTo_S16384x64_S64_d0 Cert.KernelIdeal.Facts₀.h_S_ Cert.KernelIdeal.Facts₀.bcast_S_S64 Cert.KernelIdeal.Facts₀.bcast_S64_S1x64_1 Cert.KernelIdeal.Facts₀.bcast_S1x64_S16384x64_0_1 Cert.KernelIdeal.Facts₀.bcast_S_S16384x64
      (Cert.KernelArray.layer m c) (m ((c : Thread Cert.KernelIdeal.nD Cert.KernelIdeal.τ).loc Cert.KernelIdeal.main_arg5))
      (m ((c : Thread Cert.KernelIdeal.nD Cert.KernelIdeal.τ).loc Cert.KernelIdeal.main_arg6)),
    Cert.KernelRun.run m ρ step_law, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v130_eq, Cert.RefTail.ref_tail, Cert.RefPool.ref_lin, h0, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
